-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048 : Shape := ⟨2, ![4, 2048]⟩
abbrev S512x512 : Shape := ⟨2, ![512, 512]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S512x512 .f32) (main_arg9 : FVec F S512 .f32) (main_arg10 : FVec F S512x512 .f32) (main_arg11 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S4x2048x512 .f32) (main_arg1 : FVec F S4x2048x512 .f32) (main_arg2 : FVec F S4x2048 .f32) (main_arg3 : IVec S4x2048 32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_v13 main_v16
-- ==== Kernel.lean ====
abbrev S4x2048x512 : Shape := ⟨3, ![4, 2048, 512]⟩
abbrev S4x2048 : Shape := ⟨2, ![4, 2048]⟩
abbrev S512x512 : Shape := ⟨2, ![512, 512]⟩
abbrev S512 : Shape := ⟨1, ![512]⟩
abbrev S8192x512 : Shape := ⟨2, ![8192, 512]⟩
abbrev S1x512 : Shape := ⟨2, ![1, 512]⟩
abbrev S1024x512 : Shape := ⟨2, ![1024, 512]⟩
abbrev S1024 : Shape := ⟨1, ![1024]⟩
abbrev S1x1024 : Shape := ⟨2, ![1, 1024]⟩
abbrev S8192x1024 : Shape := ⟨2, ![8192, 1024]⟩
abbrev S1024x1024 : Shape := ⟨2, ![1024, 1024]⟩
abbrev S512x1024 : Shape := ⟨2, ![512, 1024]⟩
abbrev S4x2048x8x64 : Shape := ⟨4, ![4, 2048, 8, 64]⟩
abbrev S4x8x2048x64 : Shape := ⟨4, ![4, 8, 2048, 64]⟩
abbrev S4x8x64x2048 : Shape := ⟨4, ![4, 8, 64, 2048]⟩
abbrev S_ : Shape := ⟨0, ![]⟩
abbrev S4x1x2048 : Shape := ⟨3, ![4, 1, 2048]⟩
abbrev S4x8x2048x2048 : Shape := ⟨4, ![4, 8, 2048, 2048]⟩
abbrev S1x1x512x64 : Shape := ⟨4, ![1, 1, 512, 64]⟩
abbrev S1x1x64x2048 : Shape := ⟨4, ![1, 1, 64, 2048]⟩
abbrev S1x1x2048x64 : Shape := ⟨4, ![1, 1, 2048, 64]⟩
abbrev S1x1x2048 : Shape := ⟨3, ![1, 1, 2048]⟩
abbrev S1x1x512x2048 : Shape := ⟨4, ![1, 1, 512, 2048]⟩
abbrev S512x64 : Shape := ⟨2, ![512, 64]⟩
abbrev S64x2048 : Shape := ⟨2, ![64, 2048]⟩
abbrev S2048x64 : Shape := ⟨2, ![2048, 64]⟩
abbrev S512x2048 : Shape := ⟨2, ![512, 2048]⟩
abbrev S1x2048 : Shape := ⟨2, ![1, 2048]⟩
abbrev S512x1 : Shape := ⟨2, ![512, 1]⟩

abbrev nBuf : Space → Nat
  | .hbm => 45
  | .vmem => 30
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048, .f32⟩
  | .hbm, ⟨3, _⟩ => ⟨S4x2048, .i32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S8192x512, .f32⟩
  | .hbm, ⟨13, _⟩ => ⟨S1x512, .f32⟩
  | .hbm, ⟨14, _⟩ => ⟨S8192x512, .bf16⟩
  | .hbm, ⟨15, _⟩ => ⟨S1024x512, .f32⟩
  | .hbm, ⟨16, _⟩ => ⟨S1024, .f32⟩
  | .hbm, ⟨17, _⟩ => ⟨S8192x512, .f32⟩
  | .hbm, ⟨18, _⟩ => ⟨S1x1024, .f32⟩
  | .hbm, ⟨19, _⟩ => ⟨S8192x1024, .bf16⟩
  | .hbm, ⟨20, _⟩ => ⟨S8192x512, .bf16⟩
  | .hbm, ⟨21, _⟩ => ⟨S8192x512, .bf16⟩
  | .hbm, ⟨22, _⟩ => ⟨S4x2048x8x64, .bf16⟩
  | .hbm, ⟨23, _⟩ => ⟨S4x8x2048x64, .bf16⟩
  | .hbm, ⟨24, _⟩ => ⟨S4x2048x8x64, .bf16⟩
  | .hbm, ⟨25, _⟩ => ⟨S4x8x64x2048, .bf16⟩
  | .hbm, ⟨26, _⟩ => ⟨S4x2048x8x64, .bf16⟩
  | .hbm, ⟨27, _⟩ => ⟨S4x8x2048x64, .bf16⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048, .f32⟩
  | .hbm, ⟨37, _⟩ => ⟨S4x1x2048, .f32⟩
  | .hbm, ⟨38, _⟩ => ⟨S4x8x2048x2048, .f32⟩
  | .hbm, ⟨39, _⟩ => ⟨S4x8x2048x64, .bf16⟩
  | .hbm, ⟨40, _⟩ => ⟨S4x2048x8x64, .bf16⟩
  | .hbm, ⟨41, _⟩ => ⟨S8192x512, .bf16⟩
  | .hbm, ⟨42, _⟩ => ⟨S1x512, .f32⟩
  | .hbm, ⟨43, _⟩ => ⟨S8192x512, .f32⟩
  | .hbm, ⟨44, _⟩ => ⟨S4x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1x512x64, .bf16⟩
  | .local _ .vmem, ⟨13, _⟩ => ⟨S1x1x512x64, .bf16⟩
  | .local _ .vmem, ⟨14, _⟩ => ⟨S1x1x64x2048, .bf16⟩
  | .local _ .vmem, ⟨15, _⟩ => ⟨S1x1x64x2048, .bf16⟩
  | .local _ .vmem, ⟨16, _⟩ => ⟨S1x1x2048x64, .bf16⟩
  | .local _ .vmem, ⟨17, _⟩ => ⟨S1x1x2048x64, .bf16⟩
  | .local _ .vmem, ⟨18, _⟩ => ⟨S1x1x2048, .f32⟩
  | .local _ .vmem, ⟨19, _⟩ => ⟨S1x1x2048, .f32⟩
  | .local _ .vmem, ⟨20, _⟩ => ⟨S1x1x512x2048, .f32⟩
  | .local _ .vmem, ⟨21, _⟩ => ⟨S1x1x512x2048, .f32⟩
  | .local _ .vmem, ⟨22, _⟩ => ⟨S1x1x512x64, .bf16⟩
  | .local _ .vmem, ⟨23, _⟩ => ⟨S1x1x512x64, .bf16⟩
  | .local _ .vmem, ⟨24, _⟩ => ⟨S1024x512, .bf16⟩
  | .local _ .vmem, ⟨25, _⟩ => ⟨S1024x512, .bf16⟩
  | .local _ .vmem, ⟨26, _⟩ => ⟨S512x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 8, 4], ![false, false, false]⟩

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_5 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage2_0 : Fin 2 → Memref sig .tc .vmem S1x1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1x64x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1x2048x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1x1x512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x1x512x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S4x2048x512_S8192x512 : S4x2048x512.ShapeCasts S8192x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  concatenates_S512x512_S512x512_S1024x512_d0 : Shape.Concatenates [S512x512, S512x512] S1024x512 0
  concatenates_S512_S512_S1024_d0 : Shape.Concatenates [S512, S512] S1024 0
  shapeCasts_S1024_S1x1024 : S1024.ShapeCasts S1x1024
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  slices_S8192x1024_S8192x512_0_0 : S8192x1024.Slices ![0, 0] S8192x512
  slices_S8192x1024_S8192x512_0_512 : S8192x1024.Slices ![0, 512] S8192x512
  shapeCasts_S8192x512_S4x2048x8x64 : S8192x512.ShapeCasts S4x2048x8x64
  transposes_S4x2048x8x64_S4x8x2048x64_0_2_1_3 : S4x2048x8x64.Transposes [0, 2, 1, 3] S4x8x2048x64
  transposes_S4x2048x8x64_S4x8x64x2048_0_2_3_1 : S4x2048x8x64.Transposes [0, 2, 3, 1] S4x8x64x2048
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S4x8x2048x64_S4x2048x8x64_0_2_1_3 : S4x8x2048x64.Transposes [0, 2, 1, 3] S4x2048x8x64
  shapeCasts_S4x2048x8x64_S8192x512 : S4x2048x8x64.ShapeCasts S8192x512
  shapeCasts_S8192x512_S4x2048x512 : S8192x512.ShapeCasts S4x2048x512
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x512x64.size a ≤ S4x8x2048x64.size a
  hwx2_0 : ∀ i : grid2.Coords, EltTy.bits .bf16 = 32 ∨ (Rect.block (s := S4x8x2048x64) S1x1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x64x2048.size a ≤ S4x8x64x2048.size a
  hwx2_1 : ∀ i : grid2.Coords, EltTy.bits .bf16 = 32 ∨ (Rect.block (s := S4x8x64x2048) S1x1x64x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2048x64.size a ≤ S4x8x2048x64.size a
  hwx2_2 : ∀ i : grid2.Coords, EltTy.bits .bf16 = 32 ∨ (Rect.block (s := S4x8x2048x64) S1x1x2048x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x2048.size a ≤ S4x1x2048.size a
  hwx2_3 : ∀ i : grid2.Coords, EltTy.bits .f32 = 32 ∨ (Rect.block (s := S4x1x2048) S1x1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512x2048.size a ≤ S4x8x2048x2048.size a
  hwx2_4 : ∀ i : grid2.Coords, EltTy.bits .f32 = 32 ∨ (Rect.block (s := S4x8x2048x2048) S1x1x512x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x512x64.size a ≤ S4x8x2048x64.size a
  hwx2_5 : ∀ i : grid2.Coords, EltTy.bits .bf16 = 32 ∨ (Rect.block (s := S4x8x2048x64) S1x1x512x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .bf16 = 32 ∨ (Rect.block (s := S8192x512) S1024x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .f32 = 32 ∨ (Rect.block (s := S8192x512) S1024x512.size (cc3_transform_3 i) (hinb3_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S1x1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x1x64x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1x2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21_0) S1x1x512x2048.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v21_1) S1x1x512x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v23) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x2048x512 : Shape := ⟨3, ![4, 2048, 512]⟩
abbrev S4x2048 : Shape := ⟨2, ![4, 2048]⟩
abbrev S512x512 : Shape := ⟨2, ![512, 512]⟩
abbrev S512 : Shape := ⟨1, ![512]⟩
abbrev S1x1x512 : Shape := ⟨3, ![1, 1, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S4x1x1x2048 : Shape := ⟨4, ![4, 1, 1, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048, .f32⟩
  | .hbm, ⟨3, _⟩ => ⟨S4x2048, .i32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S4x2048x512, .f32⟩
  | .hbm, ⟨13, _⟩ => ⟨S1x1x512, .f32⟩
  | .hbm, ⟨14, _⟩ => ⟨S4x2048x512, .f32⟩
  | .hbm, ⟨15, _⟩ => ⟨S4x2048x512, .f32⟩
  | .hbm, ⟨16, _⟩ => ⟨S4x2048x8x64, .f32⟩
  | .hbm, ⟨17, _⟩ => ⟨S4x8x2048x64, .f32⟩
  | .hbm, ⟨18, _⟩ => ⟨S4x2048x512, .f32⟩
  | .hbm, ⟨19, _⟩ => ⟨S1x1x512, .f32⟩
  | .hbm, ⟨20, _⟩ => ⟨S4x2048x512, .f32⟩
  | .hbm, ⟨21, _⟩ => ⟨S4x2048x512, .f32⟩
  | .hbm, ⟨22, _⟩ => ⟨S4x2048x8x64, .f32⟩
  | .hbm, ⟨23, _⟩ => ⟨S4x8x2048x64, .f32⟩
  | .hbm, ⟨24, _⟩ => ⟨S4x2048x512, .f32⟩
  | .hbm, ⟨25, _⟩ => ⟨S1x1x512, .f32⟩
  | .hbm, ⟨26, _⟩ => ⟨S4x2048x512, .f32⟩
  | .hbm, ⟨27, _⟩ => ⟨S4x2048x512, .f32⟩
  | .hbm, ⟨28, _⟩ => ⟨S4x2048x8x64, .f32⟩
  | .hbm, ⟨29, _⟩ => ⟨S4x8x2048x64, .f32⟩
  | .hbm, ⟨30, _⟩ => ⟨S4x8x2048x2048, .f32⟩
  | .hbm, ⟨31, _⟩ => ⟨S4x1x1x2048, .f32⟩
  | .hbm, ⟨32, _⟩ => ⟨S_, .f32⟩
  | .hbm, ⟨33, _⟩ => ⟨S4x1x1x2048, .f32⟩
  | .hbm, ⟨34, _⟩ => ⟨S4x1x1x2048, .i1⟩
  | .hbm, ⟨35, _⟩ => ⟨S_, .f32⟩
  | .hbm, ⟨36, _⟩ => ⟨S_, .f32⟩
  | .hbm, ⟨37, _⟩ => ⟨S4x1x1x2048, .f32⟩
  | .hbm, ⟨38, _⟩ => ⟨S4x1x1x2048, .f32⟩
  | .hbm, ⟨39, _⟩ => ⟨S4x1x1x2048, .f32⟩
  | .hbm, ⟨40, _⟩ => ⟨S4x1x1x2048, .f32⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048, .f32⟩
  | .hbm, ⟨45, _⟩ => ⟨S_, .f32⟩
  | .hbm, ⟨46, _⟩ => ⟨S4x8x2048, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S4x8x2048, .f32⟩
  | .hbm, ⟨54, _⟩ => ⟨S4x8x2048x1, .f32⟩
  | .hbm, ⟨55, _⟩ => ⟨S4x8x2048x2048, .f32⟩
  | .hbm, ⟨56, _⟩ => ⟨S4x8x2048x2048, .f32⟩
  | .hbm, ⟨57, _⟩ => ⟨S4x8x2048x64, .f32⟩
  | .hbm, ⟨58, _⟩ => ⟨S4x2048x8x64, .f32⟩
  | .hbm, ⟨59, _⟩ => ⟨S4x2048x512, .f32⟩
  | .hbm, ⟨60, _⟩ => ⟨S4x2048x512, .f32⟩
  | .hbm, ⟨61, _⟩ => ⟨S1x1x512, .f32⟩
  | .hbm, ⟨62, _⟩ => ⟨S4x2048x512, .f32⟩
  | .hbm, ⟨63, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x8x2048x2048_0_1_2_3 : S4x1x1x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  dot_S4x2048x512_S512x512_S4x2048x512_2_1_01_0_n_n_wf : DotDims.WF S4x2048x512 S512x512 S4x2048x512 [2] [1] [0, 1] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.KRun.lean ====
/-
  The attention program's run with its two results named.

  The program is four kernel regions among stretches of host operations. Its run is the run of those eleven segments;
  at the end every buffer the thread holds has the contents of the last boundary, the fold `W11` of the segments from
  the launch memory. Read at the two result buffers this names the results; read at the arguments it gives them back
  unchanged.
-/
import proofs.«133988_j46273977647279_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the output buffer and the attention-weight
    buffer end at the last boundary's contents, and the argument arrays end as launched. -/
theorem run : θ_run defs (onTc (τ := τ) (main (F := F))) ⟨m, fun _ => 0, ρ⟩ (fun r => ∀ c : Dev nD,
      r.2.mem ((c.tc : Thread nD τ).loc main_v26) = W11 m ρ c (Proc.devRef .tc main_v26)
      ∧ r.2.mem ((c.tc : Thread nD τ).loc main_v21_0) = W11 m ρ c (Proc.devRef .tc main_v21_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v26 (by decide)),
       h c _ (mem_uc main_v21_0 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Named

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«133988_j46273977647279_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«133988_j46273977647279_2_alg».proof.Proof.LibDenseRows
import proofs.«133988_j46273977647279_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibSoftmaxRows.lean ====
/-
  General lemmas for kernels that pool over a leading axis and take a softmax along the last axis, read at the exact
  (extended-real) instance. Generic in the extents.

  * `leadSum_apply`: a sum of a [C, A, B] array along its FIRST axis is at (p, q) the plain sum over c of the array at (c, p, q).
  * `leadMax_apply`: a maximum of a [C, A, B] array along its first axis, from a starting pattern, is at (p, q) the fold of
    max from that pattern's value over c of the array at (c, p, q).
  * `rowMax_apply`: a maximum of an [A, B] array along its last axis is at p the fold of max over k of the array at (p, k).
  * `keepdimsMax_apply`: the same kept as an [A, 1] column, at (p, u).
  * `broadcastTo_1ab_cab_apply`: a [1, A, B] array repeated C times along the first axis reads, at (c, p, q), the array at (0, p, q).
  * `softmaxRows_apply`: the softmax of an [A, B] array along its last axis as a kernel body spells it — row maximum from minus
    infinity kept as a column and repeated along the rows, subtracted, exponentiated, the row sum of that kept as a column and
    repeated, the quotient — is at (p, q) exp (f (p, q) − M) / ∑ₖ exp (f (p, k) − M), M the fold of max over the row.
-/
import Idealize.ShloMosaic.Lib.ValueIdx
import Idealize.ShloMosaic.Lib.ValueLayout
import Idealize.ShloMosaic.Lib.Pipeline.Value
import Idealize.ShloMosaic.PureOps.Ideal.Laws
import proofs.«133988_j46273977647279_2_alg».proof.Proof.LibColumns

noncomputable section

open scoped BigOperators

namespace Cert.SoftmaxRows

open Idealize.ShloMosaic Idealize.ShloMosaic.ValueIdx

/-! ## Pooling over the first axis of a rank-three array -/

/-- The sum of a [C, A, B] array along its first axis, at (p, q): the sum over c of the array at (c, p, q). -/
theorem leadSum_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.add.neutral φ hφ)
    (p : Fin A) (q : Fin B) :
    multiReduction .add [0] ⟨2, ![A, B]⟩ src acc h hφ hacc (ix2 p q) = ∑ c : Fin C, src (ix3 c p q) := by
  refine (Ideal.multiReduction_add_single src acc h hφ hacc (ix2 p q)).trans ?_
  refine Finset.sum_congr rfl fun k _ => congrArg src (funext fun d => Fin.ext ?_)
  rw [h.lift_val]
  match d with
  | ⟨0, _⟩ => rfl
  | ⟨1, _⟩ => rfl
  | ⟨2, _⟩ => rfl

/-- The maximum of a [C, A, B] array along its first axis, at (p, q): the fold of max, from the starting pattern's value,
    over c of the array at (c, p, q). -/
theorem leadMax_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.maximumf.neutral φ hφ)
    (p : Fin A) (q : Fin B) :
    multiReduction .maximumf [0] ⟨2, ![A, B]⟩ src acc h hφ hacc (ix2 p q)
      = (Finset.univ : Finset (Fin C)).fold max (Ideal.ofBits φ acc) (fun c => src (ix3 c p q)) := by
  refine (Ideal.multiReduction_maximumf_single src acc h hφ hacc (ix2 p q)).trans ?_
  refine congrArg ((Finset.univ : Finset (Fin C)).fold max (Ideal.ofBits φ acc)) (funext fun k => congrArg src (funext fun d => Fin.ext ?_))
  rw [h.lift_val]
  match d with
  | ⟨0, _⟩ => rfl
  | ⟨1, _⟩ => rfl
  | ⟨2, _⟩ => rfl

/-! ## A row's maximum -/

/-- The maximum of an [A, B] array along its last axis, at p: the fold of max over k of the array at (p, k). -/
theorem rowMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  refine (Ideal.multiReduction_maximumf_single src acc h hφ hacc (ix1 p)).trans ?_
  refine congrArg ((Finset.univ : Finset (Fin B)).fold max (Ideal.ofBits φ acc)) (funext fun k => congrArg src (funext fun d => Fin.ext ?_))
  rw [h.lift_val]
  match d with
  | ⟨0, _⟩ => rfl
  | ⟨1, _⟩ => rfl

/-- The same kept as an [A, 1] column: at (p, u) the fold of max over the row p. -/
theorem keepdimsMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (hs : (⟨1, ![A]⟩ : Shape).ShapeCasts ⟨2, ![A, 1]⟩) (p : Fin A) (u : Fin 1) :
    shapeCast ⟨2, ![A, 1]⟩ (multiReduction .maximumf [1] ⟨1, ![A]⟩ src acc h hφ hacc) hs (ix2 p u)
      = (Finset.univ : Finset (Fin B)).fold max (Ideal.ofBits φ acc) (fun k => src (ix2 p k)) :=
  (Cert.DenseRows.shapeCast_a_a1_apply _ hs p u).trans (rowMax_apply src acc h hφ hacc p)

/-! ## One plane repeated along a new first axis -/

/-- A [1, A, B] array broadcast to [C, A, B] reads, at (c, p, q), the array at (0, p, q). -/
theorem broadcastTo_1ab_cab_apply {α : Type} {C A B : ℕ} (v : (⟨3, ![1, A, B]⟩ : Shape).Idx → α)
    (h : (⟨3, ![1, A, B]⟩ : Shape).Broadcasts ⟨3, ![C, A, B]⟩) (c : Fin C) (p : Fin A) (q : Fin B) :
    broadcastTo ⟨3, ![C, A, B]⟩ v h (ix3 c p q) = v (ix3 (0 : Fin 1) p q) := by
  have hA : A = 1 → p.val = 0 := fun e => by have := p.isLt; omega
  have hB : B = 1 → q.val = 0 := fun e => by have := q.isLt; omega
  refine broadcastTo_apply v h (ix3 c p q) (ix3 (0 : Fin 1) p q) fun ax => ?_
  match ax with
  | ⟨0, _⟩ => rfl
  | ⟨1, _⟩ =>
    show p.val = if A = 1 then 0 else p.val
    split
    · exact hA ‹_›
    · rfl
  | ⟨2, _⟩ =>
    show q.val = if B = 1 then 0 else q.val
    split
    · exact hB ‹_›
    · rfl

/-! ## The softmax along the last axis, as a kernel body spells it -/

/-- Row maximum from minus infinity kept as a column and repeated along the rows, subtracted, exponentiated; the row sum of
    that kept as a column and repeated; the quotient. At (p, q): exp (f (p, q) − M) / ∑ₖ exp (f (p, k) − M), where M is the
    fold of max over row p from the starting pattern's value. -/
theorem softmaxRows_apply {A B : ℕ} (f : FVec Ideal ⟨2, ![A, B]⟩ .f32) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩)
    (p : Fin A) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (f (ix2 p q) - (Finset.univ : Finset (Fin B)).fold max (Ideal.ofBits .f32 lo) (fun k => f (ix2 p k))))
          (∑ k : Fin B, Ideal.exp (f (ix2 p k) - (Finset.univ : Finset (Fin B)).fold max (Ideal.ofBits .f32 lo) (fun k => f (ix2 p k)))) := by
  have hm : ∀ k : Fin B,
      broadcastTo ⟨2, ![A, B]⟩ (shapeCast ⟨2, ![A, 1]⟩ (multiReduction .maximumf [1] ⟨1, ![A]⟩ f lo hr hφ hmax) hs) hb (ix2 p k)
        = (Finset.univ : Finset (Fin B)).fold max (Ideal.ofBits .f32 lo) (fun k => f (ix2 p k)) := fun k =>
    (Cert.Columns.broadcastTo_a1_ab_apply _ hb p k).trans (keepdimsMax_apply f lo hr hφ hmax hs p 0)
  have he : ∀ k : Fin B,
      exp (subf f (broadcastTo ⟨2, ![A, B]⟩ (shapeCast ⟨2, ![A, 1]⟩ (multiReduction .maximumf [1] ⟨1, ![A]⟩ f lo hr hφ hmax) hs) hb)) (ix2 p k)
        = Ideal.exp (f (ix2 p k) - (Finset.univ : Finset (Fin B)).fold max (Ideal.ofBits .f32 lo) (fun k => f (ix2 p k))) := fun k =>
    congrArg (fun z => Ideal.exp (f (ix2 p k) - z)) (hm k)
  refine congrArg₂ Ideal.div (he q) ?_
  refine ((Cert.Columns.broadcastTo_a1_ab_apply _ hb p q).trans (Cert.Columns.keepdimsSum_apply _ _ hr hφ hadd hs p 0)).trans ?_
  exact Finset.sum_congr rfl fun k _ => he k

end Cert.SoftmaxRows

end
-- ==== Proof.LibAttnBody.lean ====
/-
  General lemmas for attention kernel bodies, read at the exact (extended-real) instance, one entry at a time. Generic in
  the extents.

  * `shapeCast_11ab_ab_apply`, `shapeCast_ab_11ab_apply`, `shapeCast_11a_1a_apply`: the reshapes [1, 1, a, b] → [a, b],
    [a, b] → [1, 1, a, b] and [1, 1, a] → [1, a] read at an index (a block that arrives with two leading unit axes).
  * `denseT_bias_apply`: an [M, K] array times the TRANSPOSE (taken in the body) of an [N, K] weight array into a zero
    accumulator, plus a [1, N] bias row repeated down the rows: at (p, j) the sum over k of left (p, k) · weights (j, k),
    plus the bias at j.
  * `scores_apply`: a product of a [1, 1, A, E] block with a [1, 1, E, B] block (unit axes dropped) into a zero
    accumulator, plus a [1, 1, B] mask row repeated down the rows: at (p, k) the sum over d of left (0, 0, p, d) ·
    right (0, 0, d, k), plus the mask at (0, 0, k).
  * `softmaxRows_apply_of`: the softmax of an [A, B] array along its last axis as a kernel body spells it (row maximum
    from a starting pattern kept as a column and repeated, subtracted, exponentiated, the row sum kept as a column and
    repeated, the quotient), the entries of row p given by a formula R: exp (R q − M) / ∑ₖ exp (R k − M), M the fold of max
    over R.
-/
import proofs.«133988_j46273977647279_2_alg».proof.Proof.LibPlainLayers
import proofs.«133988_j46273977647279_2_alg».proof.Proof.LibSoftmaxRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnBody

open Idealize.ShloMosaic Idealize.ShloMosaic.ValueIdx

/-! ## Reshapes that add or drop two leading unit axes -/

/-- A [1, 1, a, b] array recast as [a, b] reads, at (i, j), the array at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array recast as [1, 1, a, b] reads, at (u, v, i, j), the array at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1, a] array recast as [1, a] reads, at (u, i), the array at (0, 0, i). -/
theorem shapeCast_11a_1a_apply {α : Type} {a : ℕ} (x : (⟨3, ![1, 1, a]⟩ : Shape).Idx → α)
    (h : (⟨3, ![1, 1, a]⟩ : Shape).ShapeCasts ⟨2, ![1, a]⟩) (u : Fin 1) (i : Fin a) :
    shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-! ## A dense layer whose weights arrive as [N, K] rows and are transposed in the body -/

/-- The product of an [M, K] array with the transpose of an [N, K] array into a zero accumulator, plus a [1, N] bias row
    repeated down the rows: at (p, j) the sum over k of left (p, k) times weights (j, k), plus the bias at j. -/
theorem denseT_bias_apply {M K N : ℕ} {φ₁ φ₂ : FTy} (D : DotDims ⟨2, ![M, K]⟩ ⟨2, ![K, N]⟩ ⟨2, ![M, N]⟩)
    (hD : D = DotDims.plain M K N) (prec : Option ContractPrecision)
    (h : FVec Ideal ⟨2, ![M, K]⟩ φ₁) (w : FVec Ideal ⟨2, ![N, K]⟩ φ₂)
    (ht : (⟨2, ![N, K]⟩ : Shape).Transposes [1, 0] ⟨2, ![K, N]⟩) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (j : Fin N) :
    addf (matmul D prec h (transpose ⟨2, ![K, N]⟩ [1, 0] w ht) (constant ⟨2, ![M, N]⟩ .f32 0x00000000#32))
        (broadcastTo ⟨2, ![M, N]⟩ (shapeCast ⟨2, ![1, N]⟩ b hc) hb) (ix2 p j)
      = (∑ k : Fin K, h (ix2 p k) * w (ix2 j k)) + b (ix2 (0 : Fin 1) j) :=
  congrArg₂ (· + ·)
    ((Cert.PlainLayers.plainMM_of_eq D hD prec h _ p j).trans
      (Finset.sum_congr rfl fun k _ => congrArg (h (ix2 p k) * ·) (transpose_ix2_apply w ht k j)))
    ((broadcastTo_1b_ab_apply _ hb p j).trans (congrFun (shapeCast_self b hc) _))

/-! ## The scores of a block and the softmax of rows given by a formula -/

/-- A product of two arrays that arrive with two leading unit axes, plus a mask row that arrives with two leading unit
    axes and is repeated down the rows: at (p, k) the sum over d of left (0, 0, p, d) times right (0, 0, d, k), plus the
    mask at (0, 0, k). -/
theorem scores_apply {A E B : ℕ} {φ₁ φ₂ : FTy} (D : DotDims ⟨2, ![A, E]⟩ ⟨2, ![E, B]⟩ ⟨2, ![A, B]⟩)
    (hD : D = DotDims.plain A E B) (prec : Option ContractPrecision)
    (x0 : FVec Ideal ⟨4, ![1, 1, A, E]⟩ φ₁) (h0 : (⟨4, ![1, 1, A, E]⟩ : Shape).ShapeCasts ⟨2, ![A, E]⟩)
    (x1 : FVec Ideal ⟨4, ![1, 1, E, B]⟩ φ₂) (h1 : (⟨4, ![1, 1, E, B]⟩ : Shape).ShapeCasts ⟨2, ![E, B]⟩)
    (x3 : FVec Ideal ⟨3, ![1, 1, B]⟩ .f32) (h3 : (⟨3, ![1, 1, B]⟩ : Shape).ShapeCasts ⟨2, ![1, B]⟩)
    (hb : (⟨2, ![1, B]⟩ : Shape).Broadcasts ⟨2, ![A, B]⟩) (p : Fin A) (k : Fin B) :
    addf (matmul D prec (shapeCast ⟨2, ![A, E]⟩ x0 h0) (shapeCast ⟨2, ![E, B]⟩ x1 h1) (constant ⟨2, ![A, B]⟩ .f32 0x00000000#32))
        (broadcastTo ⟨2, ![A, B]⟩ (shapeCast ⟨2, ![1, B]⟩ x3 h3) hb) (ix2 p k)
      = (∑ d : Fin E, x0 (ix4 (0 : Fin 1) (0 : Fin 1) p d) * x1 (ix4 (0 : Fin 1) (0 : Fin 1) d k))
          + x3 (ix3 (0 : Fin 1) (0 : Fin 1) k) :=
  congrArg₂ (· + ·)
    ((Cert.PlainLayers.plainMM_of_eq D hD prec _ _ p k).trans
      (Finset.sum_congr rfl fun d _ => congrArg₂ (· * ·) (shapeCast_11ab_ab_apply x0 h0 p d) (shapeCast_11ab_ab_apply x1 h1 d k)))
    ((broadcastTo_1b_ab_apply _ hb p k).trans (shapeCast_11a_1a_apply x3 h3 0 k))

/-- The softmax of an array along its last axis as a body spells it, the entries of row p given by a formula R. -/
theorem softmaxRows_apply_of {A B : ℕ} (f : FVec Ideal ⟨2, ![A, B]⟩ .f32) (R : Fin B → EReal) (p : Fin A)
    (hf : ∀ k, f (ix2 p k) = R k) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (R q - (Finset.univ : Finset (Fin B)).fold max (Ideal.ofBits .f32 lo) R))
          (∑ k : Fin B, Ideal.exp (R k - (Finset.univ : Finset (Fin B)).fold max (Ideal.ofBits .f32 lo) R)) := by
  have hR : (fun k => f (ix2 p k)) = R := funext hf
  rw [Cert.SoftmaxRows.softmaxRows_apply f lo hr hφ hmax hadd hs hb p q, hR]
  simp only [hf]

end Cert.AttnBody

end
-- ==== Proof.Bodies.lean ====
/-
  The four kernel bodies of the attention layer, each stored value read at one index over the extended reals.

  * The three linear bodies (`k0_pay1_apply`, `k1_pay1_apply`, `k3_pay1_apply`): the rows x of the left block times the
    transpose of the weight block W, whose rows arrive as [N, K], into a zero accumulator, plus the [1, N] bias row b
    repeated down the rows. At (p, j): Σₖ x (p, k) · W (j, k) + b (0, j). The changes of number format on the way are the
    identity on extended reals.
  * The attention body: the query block [1, 1, 512, 64] and the already transposed key block [1, 1, 64, 2048] lose their
    two leading unit axes, are multiplied into a zero accumulator, and the mask row [1, 1, 2048] is repeated down the rows:
    `blockScore` at (p, k) is Σ_d q (0, 0, p, d) · kᵀ (0, 0, d, k) + mask (0, 0, k). The softmax along the key axis, the
    maximum folded from minus infinity, is `blockWeight`; it is what the body stores with two leading unit axes put back
    (`k2_pay2_apply`), and its product with the value block [1, 1, 2048, 64] is the body's second result
    (`k2_pay3_apply`): Σₖ weight (p, k) · v (0, 0, k, d).

  The reshapes of blocks that arrive with two leading unit axes, the transposed-weights dense layer, a block's score array
  and the softmax of rows given by a formula are general lemmas of their own module.
-/
import proofs.«133988_j46273977647279_2_alg».proof.Proof.Gen.KernelIdeal.Skeleton
import proofs.«133988_j46273977647279_2_alg».proof.Proof.LibAttnBody
import proofs.«133988_j46273977647279_2_alg».proof.Proof.LibPlainLayers
import proofs.«133988_j46273977647279_2_alg».proof.Proof.LibSoftmaxRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Idealize.ShloMosaic Idealize.ShloMosaic.ValueIdx Cert.KernelIdeal Cert.KernelIdeal.Gen Cert.AttnBody

/-! ## The three linear bodies -/

/-- The first projection body: rows through x·Wᵀ + b. -/
theorem k0_pay1_apply (x0 : Vec Ideal S1024x512 .f32) (x1 : Vec Ideal S512x512 .f32) (x2 : Vec Ideal S1x512 .f32)
    (p : Fin 1024) (j : Fin 512) :
    Gen.k0_pay1 (F := Ideal) x0 x1 x2 (ix2 p j)
      = (∑ k : Fin 512, x0 (ix2 p k) * x1 (ix2 j k)) + x2 (ix2 (0 : Fin 1) j) := by
  unfold Gen.k0_pay1
  refine (truncf_apply (ψ := .bf16) _ bitsLt_bf16_f32 _).trans ?_
  refine (denseT_bias_apply (M := 1024) (K := 512) (N := 512) _ rfl none _ _ _ _ _ _ p j).trans ?_
  exact congrArg (· + x2 (ix2 (0 : Fin 1) j))
    (Finset.sum_congr rfl fun k _ => congrArg (· * x1 (ix2 j k)) (congrFun (shapeCast_self x0 _) _))

/-- The fused key/value projection body: rows through x·Wᵀ + b, 1024 output columns. -/
theorem k1_pay1_apply (x0 : Vec Ideal S1024x512 .f32) (x1 : Vec Ideal S1024x512 .f32) (x2 : Vec Ideal S1x1024 .f32)
    (p : Fin 1024) (j : Fin 1024) :
    Gen.k1_pay1 (F := Ideal) x0 x1 x2 (ix2 p j)
      = (∑ k : Fin 512, x0 (ix2 p k) * x1 (ix2 j k)) + x2 (ix2 (0 : Fin 1) j) := by
  unfold Gen.k1_pay1
  refine (truncf_apply (ψ := .bf16) _ bitsLt_bf16_f32 _).trans ?_
  refine (denseT_bias_apply (M := 1024) (K := 512) (N := 1024) _ rfl none _ _ _ _ _ _ p j).trans ?_
  exact congrArg (· + x2 (ix2 (0 : Fin 1) j))
    (Finset.sum_congr rfl fun k _ => congrArg₂ (· * ·) (congrFun (shapeCast_self x0 _) _) (congrFun (shapeCast_self x1 _) _))

/-- The output projection body: rows through x·Wᵀ + b. -/
theorem k3_pay1_apply (x0 : Vec Ideal S1024x512 .bf16) (x1 : Vec Ideal S512x512 .f32) (x2 : Vec Ideal S1x512 .f32)
    (p : Fin 1024) (j : Fin 512) :
    Gen.k3_pay1 (F := Ideal) x0 x1 x2 (ix2 p j)
      = (∑ k : Fin 512, x0 (ix2 p k) * x1 (ix2 j k)) + x2 (ix2 (0 : Fin 1) j) := by
  unfold Gen.k3_pay1
  refine (denseT_bias_apply (M := 1024) (K := 512) (N := 512) _ rfl none _ _ _ _ _ _ p j).trans ?_
  exact congrArg (· + x2 (ix2 (0 : Fin 1) j))
    (Finset.sum_congr rfl fun k _ => congrArg (· * x1 (ix2 j k)) (congrFun (shapeCast_self x0 _) _))

/-! ## The attention body -/

/-- A block's score of query row p against key column k: the dot product over the head width, plus the key's mask entry. -/
def blockScore (x0 : Vec Ideal S1x1x512x64 .bf16) (x1 : Vec Ideal S1x1x64x2048 .bf16) (x3 : Vec Ideal S1x1x2048 .f32)
    (p : Fin 512) (k : Fin 2048) : EReal :=
  (∑ d : Fin 64, x0 (ix4 (0 : Fin 1) (0 : Fin 1) p d) * x1 (ix4 (0 : Fin 1) (0 : Fin 1) d k)) + x3 (ix3 (0 : Fin 1) (0 : Fin 1) k)

/-- A block's attention weight: the softmax of the scores along the key axis, the maximum folded from minus infinity. -/
def blockWeight (x0 : Vec Ideal S1x1x512x64 .bf16) (x1 : Vec Ideal S1x1x64x2048 .bf16) (x3 : Vec Ideal S1x1x2048 .f32)
    (p : Fin 512) (k : Fin 2048) : EReal :=
  Ideal.div
    (Ideal.exp (blockScore x0 x1 x3 p k
      - (Finset.univ : Finset (Fin 2048)).fold max (Ideal.ofBits .f32 0xFF800000#32) (fun k' => blockScore x0 x1 x3 p k')))
    (∑ k'' : Fin 2048, Ideal.exp (blockScore x0 x1 x3 p k''
      - (Finset.univ : Finset (Fin 2048)).fold max (Ideal.ofBits .f32 0xFF800000#32) (fun k' => blockScore x0 x1 x3 p k')))

/-- The attention body's weights, before they are laid out for the store. -/
theorem k2_pay1_apply (x0 : Vec Ideal S1x1x512x64 .bf16) (x1 : Vec Ideal S1x1x64x2048 .bf16) (x3 : Vec Ideal S1x1x2048 .f32)
    (p : Fin 512) (k : Fin 2048) :
    Gen.k2_pay1 (F := Ideal) x0 x1 x3 (ix2 p k) = blockWeight x0 x1 x3 p k := by
  unfold Gen.k2_pay1
  refine softmaxRows_apply_of (A := 512) (B := 2048) _ (blockScore x0 x1 x3 p) p ?_ 0xFF800000#32
    reduces_S512x2048_S512 (.inl rfl) rfl rfl shapeCasts_S512_S512x1 broadcasts_S512x1_S512x2048 k
  intro k'
  exact scores_apply (A := 512) (E := 64) (B := 2048) _ rfl none x0 _ x1 _ x3 _ _ p k'

/-- The attention body's stored weights. -/
theorem k2_pay2_apply (x0 : Vec Ideal S1x1x512x64 .bf16) (x1 : Vec Ideal S1x1x64x2048 .bf16) (x3 : Vec Ideal S1x1x2048 .f32)
    (u v : Fin 1) (p : Fin 512) (k : Fin 2048) :
    Gen.k2_pay2 (F := Ideal) x0 x1 x3 (ix4 u v p k) = blockWeight x0 x1 x3 p k := by
  unfold Gen.k2_pay2
  exact (shapeCast_ab_11ab_apply _ shapeCasts_S512x2048_S1x1x512x2048 u v p k).trans (k2_pay1_apply x0 x1 x3 p k)

/-- The attention body's blended values: the weights times the value rows. -/
theorem k2_pay3_apply (x0 : Vec Ideal S1x1x512x64 .bf16) (x1 : Vec Ideal S1x1x64x2048 .bf16) (x2 : Vec Ideal S1x1x2048x64 .bf16)
    (x3 : Vec Ideal S1x1x2048 .f32) (u v : Fin 1) (p : Fin 512) (d : Fin 64) :
    Gen.k2_pay3 (F := Ideal) x0 x1 x2 x3 (ix4 u v p d)
      = ∑ k : Fin 2048, blockWeight x0 x1 x3 p k * x2 (ix4 (0 : Fin 1) (0 : Fin 1) k d) := by
  unfold Gen.k2_pay3
  refine (shapeCast_ab_11ab_apply _ shapeCasts_S512x64_S1x1x512x64 u v p d).trans ?_
  refine (truncf_apply (ψ := .bf16) _ bitsLt_bf16_f32 _).trans ?_
  refine (Cert.PlainLayers.plainMM_of_eq (M := 512) (K := 2048) (N := 64) _ rfl none _ _ p d).trans ?_
  exact Finset.sum_congr rfl fun k _ =>
    congrArg₂ (· * ·) (k2_pay1_apply x0 x1 x3 p k) (shapeCast_11ab_ab_apply x2 shapeCasts_S1x1x2048x64_S2048x64 k d)

end Cert.KernelIdeal.Bodies
end
-- ==== Proof.KReg0.lean ====
/-
  Region 0 of the attention program (a dense layer on a tile of 1024 rows per grid point), from blocks to the array.

  Each grid point stores one [1024, 512] block of the output: the body's value of the point's input blocks. The
  activations' row block moves with the output's; weights and bias are the same whole arrays at every point. So the
  blocks are the restrictions of ONE function of the arrays the region finds, `rowsDense`, and since the eight row
  blocks cover the output array, the array after the region is that function.
-/
import proofs.«133988_j46273977647279_2_alg».proof.Proof.Gen.KernelIdeal.Frame
import proofs.«133988_j46273977647279_2_alg».proof.Proof.Bodies
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows through a dense layer: entry (r, j) is the sum over k of A (r, k) · W (j, k), plus the bias row's entry j. -/
def rowsDense (A : S8192x512.Idx → EReal) (W : S512x512.Idx → EReal) (B : S1x512.Idx → EReal) : S8192x512.Idx → EReal :=
  fun i => (∑ k : Fin 512, A (ix2 (i 0) k) * W (ix2 (i 1) k)) + B (ix2 (0 : Fin 1) (i 1))

/-- The body's stored block as a function of its index. -/
theorem pay_fun (x0 : Vec Ideal S1024x512 .f32) (x1 : Vec Ideal S512x512 .f32) (x2 : Vec Ideal S1x512 .f32) :
    Gen.k0_pay1 (F := Ideal) x0 x1 x2 = fun j => (∑ k : Fin 512, x0 (ix2 (j 0) k) * x1 (ix2 (j 1) k)) + x2 (ix2 (0 : Fin 1) (j 1)) := by
  funext j
  obtain ⟨p, q, rfl⟩ : ∃ (p : Fin 1024) (q : Fin 512), j = ix2 p q := ⟨j 0, j 1, eq_ix2 j⟩
  exact Bodies.k0_pay1_apply x0 x1 x2 p q

/-- The index maps over the grid: the row block of the activations moves with the output's; weights and bias stay. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every row block is some point's. -/
theorem idx_onto : ∀ (q0 : Fin 8), ∃ t : Fin cfg0.N, win0_3.index t = ![q0.val, 0] :=
  (by decide +kernel : ∀ (q0 : Fin 8), ∃ t : Fin grid0.N, win0_3.index t = ![q0.val, 0])

/-- One point's block, read where the index maps put it, is the dense layer read at the block's place in the array. -/
theorem point_eq (A : S8192x512.Idx → EReal) (W : S512x512.Idx → EReal) (B : S1x512.Idx → EReal) (t : Fin cfg0.N) (j : S1024x512.Idx) :
    (∑ k : Fin 512, A (((cfg0.win 0).blk t).view.emb (ix2 (j 0) k)) * W (((cfg0.win 1).blk t).view.emb (ix2 (j 1) k)))
      + B (((cfg0.win 2).blk t).view.emb (ix2 (0 : Fin 1) (j 1)))
    = rowsDense A W B (((cfg0.win 3).blk t).view.emb j) := by
  obtain ⟨e0, e1, e2, e3, e4, e5, e6, e7⟩ := idx_facts t
  have h0 : ∀ k : Fin 512, ((cfg0.win 0).blk t).view.emb (ix2 (j 0) k) = ix2 ((((cfg0.win 3).blk t).view.emb j) 0) k := fun k => by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 512 + 1 * k.val = k.val; omega
  have h1 : ∀ k : Fin 512, ((cfg0.win 1).blk t).view.emb (ix2 (j 1) k) = ix2 ((((cfg0.win 3).blk t).view.emb j) 1) k := fun k => by
    funext a; apply Fin.ext
    match a with
    | ⟨0, _⟩ => show win0_1.index t (0 : Fin 2) * 512 + 1 * (j 1).val = win0_3.index t (1 : Fin 2) * 512 + 1 * (j 1).val; omega
    | ⟨1, _⟩ => show win0_1.index t (1 : Fin 2) * 512 + 1 * k.val = k.val; omega
  have h2 : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega
  unfold rowsDense
  rw [h2]
  exact congrArg (· + _) (Finset.sum_congr rfl fun k _ => congrArg₂ (· * ·) (congrArg A (h0 k)) (congrArg W (h1 k)))

/-- What point t writes back is block t of the dense layer of the arrays the region finds. -/
theorem flushed_eq (c : Dev nD) (t : Fin cfg0.N) :
    (dat0 V c).flushed 3 t = ((cfg0.win 3).blk t).view.read (Elt Ideal) (rowsDense (V c main_v0) (V c main_arg4) (V c main_v1)) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x512) hz, View.ld_unit_zero (S := S1x512) hz]
  rw [pay_fun]
  funext j
  exact point_eq (V c main_v0) (V c main_arg4) (V c main_v1) t j

/-- An index is in point t's block iff each coordinate is in the block's range on its axis. -/
theorem mem_blk (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- Row r lies in the block of the point whose row block is r / 1024. -/
theorem cover (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the region: the dense layer of the arrays the region found. -/
theorem final (c : Dev nD) : (dat0 V c).arrAt 3 cfg0.N = rowsDense (V c main_v0) (V c main_arg4) (V c main_v1) :=
  (dat0 V c).arrAt_eq_of_cover 3 _ (fun t _ => flushed_eq V c t) cover

end Cert.KernelIdeal.Reg0

end
-- ==== Proof.KReg1.lean ====
/-
  Region 1 of the attention program (a dense layer on a tile of 1024 rows per grid point), from blocks to the array.

  Each grid point stores one [1024, 1024] block of the output: the body's value of the point's input blocks. The
  activations' row block moves with the output's; weights and bias are the same whole arrays at every point. So the
  blocks are the restrictions of ONE function of the arrays the region finds, `rowsDense`, and since the eight row
  blocks cover the output array, the array after the region is that function.
-/
import proofs.«133988_j46273977647279_2_alg».proof.Proof.Gen.KernelIdeal.Frame
import proofs.«133988_j46273977647279_2_alg».proof.Proof.Bodies
import Idealize.ShloMosaic.Lib.Pipeline.Value
import Idealize.ShloMosaic.Lib.ValueIdx

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows through a dense layer: entry (r, j) is the sum over k of A (r, k) · W (j, k), plus the bias row's entry j. -/
def rowsDense (A : S8192x512.Idx → EReal) (W : S1024x512.Idx → EReal) (B : S1x1024.Idx → EReal) : S8192x1024.Idx → EReal :=
  fun i => (∑ k : Fin 512, A (ix2 (i 0) k) * W (ix2 (i 1) k)) + B (ix2 (0 : Fin 1) (i 1))

/-- The body's stored block as a function of its index. -/
theorem pay_fun (x0 : Vec Ideal S1024x512 .f32) (x1 : Vec Ideal S1024x512 .f32) (x2 : Vec Ideal S1x1024 .f32) :
    Gen.k1_pay1 (F := Ideal) x0 x1 x2 = fun j => (∑ k : Fin 512, x0 (ix2 (j 0) k) * x1 (ix2 (j 1) k)) + x2 (ix2 (0 : Fin 1) (j 1)) := by
  funext j
  obtain ⟨p, q, rfl⟩ : ∃ (p : Fin 1024) (q : Fin 1024), j = ix2 p q := ⟨j 0, j 1, eq_ix2 j⟩
  exact Bodies.k1_pay1_apply x0 x1 x2 p q

/-- The index maps over the grid: the row block of the activations moves with the output's; weights and bias stay. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 7 ∧ win1_3.index t (1 : Fin 2) = 0 :=
  (by decide +kernel : ∀ t : Fin grid1.N, _)

/-- Every row block is some point's. -/
theorem idx_onto : ∀ (q0 : Fin 8), ∃ t : Fin cfg1.N, win1_3.index t = ![q0.val, 0] :=
  (by decide +kernel : ∀ (q0 : Fin 8), ∃ t : Fin grid1.N, win1_3.index t = ![q0.val, 0])

/-- One point's block, read where the index maps put it, is the dense layer read at the block's place in the array. -/
theorem point_eq (A : S8192x512.Idx → EReal) (W : S1024x512.Idx → EReal) (B : S1x1024.Idx → EReal) (t : Fin cfg1.N) (j : S1024x1024.Idx) :
    (∑ k : Fin 512, A (((cfg1.win 0).blk t).view.emb (ix2 (j 0) k)) * W (((cfg1.win 1).blk t).view.emb (ix2 (j 1) k)))
      + B (((cfg1.win 2).blk t).view.emb (ix2 (0 : Fin 1) (j 1)))
    = rowsDense A W B (((cfg1.win 3).blk t).view.emb j) := by
  obtain ⟨e0, e1, e2, e3, e4, e5, e6, e7⟩ := idx_facts t
  have h0 : ∀ k : Fin 512, ((cfg1.win 0).blk t).view.emb (ix2 (j 0) k) = ix2 ((((cfg1.win 3).blk t).view.emb j) 0) k := fun k => by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 512 + 1 * k.val = k.val; omega
  have h1 : ∀ k : Fin 512, ((cfg1.win 1).blk t).view.emb (ix2 (j 1) k) = ix2 ((((cfg1.win 3).blk t).view.emb j) 1) k := fun k => by
    funext a; apply Fin.ext
    match a with
    | ⟨0, _⟩ => show win1_1.index t (0 : Fin 2) * 1024 + 1 * (j 1).val = win1_3.index t (1 : Fin 2) * 1024 + 1 * (j 1).val; omega
    | ⟨1, _⟩ => show win1_1.index t (1 : Fin 2) * 512 + 1 * k.val = k.val; omega
  have h2 : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega
  unfold rowsDense
  rw [h2]
  exact congrArg (· + _) (Finset.sum_congr rfl fun k _ => congrArg₂ (· * ·) (congrArg A (h0 k)) (congrArg W (h1 k)))

/-- What point t writes back is block t of the dense layer of the arrays the region finds. -/
theorem flushed_eq (c : Dev nD) (t : Fin cfg1.N) :
    (dat1 V c).flushed 3 t = ((cfg1.win 3).blk t).view.read (Elt Ideal) (rowsDense (V c main_v5) (V c main_v3) (V c main_v6)) := by
  show (cfg1.win 3).cut (grid1.coords t) ((dat1 V c).after 3 t) = _
  rw [after1_3]
  unfold out1_3
  rw [View.canon_unit_zero hz]
  simp only [View.ld_unit_zero (S := S1024x512) hz, View.ld_unit_zero (S := S1024x512) hz, View.ld_unit_zero (S := S1x1024) hz]
  rw [pay_fun]
  funext j
  exact point_eq (V c main_v5) (V c main_v3) (V c main_v6) t j

/-- An index is in point t's block iff each coordinate is in the block's range on its axis. -/
theorem mem_blk (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v7).slice (win1_3.rect t)).set ↔ _
  rw [View.set_slice_whole, Rect.mem_set_unit]
  exact Iff.rfl

/-- Row r lies in the block of the point whose row block is r / 1024. -/
theorem cover (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region: the dense layer of the arrays the region found. -/
theorem final (c : Dev nD) : (dat1 V c).arrAt 3 cfg1.N = rowsDense (V c main_v5) (V c main_v3) (V c main_v6) :=
  (dat1 V c).arrAt_eq_of_cover 3 _ (fun t _ => flushed_eq V c t) cover

end Cert.KernelIdeal.Reg1

end
-- ==== Proof.Spec.lean ====
/-
  Multi-head attention over the extended reals, stage by stage, as plain functions of arrays indexed by
  coordinates.

  Sizes: 4 sequences of 2048 positions, model width 512 split into 8 heads of width 64; position 64·h + d of the
  model axis is entry d of head h.

  * `dense X W b`: every row of X through a dense layer, x·Wᵀ + b.
  * `maskOf M`: the additive mask, 0 where M > 1/2 and the large negative constant elsewhere.
  * `scores Q K A`: per head, the dot products of a query row with every key row, plus the key's mask entry.
  * `softmax S`: along the key axis, exp (s − max) / Σ exp (s − max), the maximum folded from −∞.
  * `blend P V`: per head, the weights times the value rows.
  * `outp B W b`: the heads laid side by side again and sent through the output layer.
-/
import Idealize.ShloMosaic.PureOps.Ideal
import Idealize.ShloMosaic.Lib.ValueIdx

noncomputable section

open scoped BigOperators

namespace Cert.Attention

open Idealize.ShloMosaic

/-- Entry d of head h sits at position 64·h + d of the model axis. -/
def hd (h : Fin 8) (d : Fin 64) : Fin 512 := ⟨64 * h.val + d.val, by have := h.isLt; have := d.isLt; omega⟩

/-- The head a model-axis position belongs to. -/
def hOf (k : Fin 512) : Fin 8 := ⟨k.val / 64, by have := k.isLt; omega⟩

/-- A model-axis position's place inside its head. -/
def dOf (k : Fin 512) : Fin 64 := ⟨k.val % 64, Nat.mod_lt _ (by decide)⟩

theorem hd_val (h : Fin 8) (d : Fin 64) : (hd h d).val = 64 * h.val + d.val := rfl
theorem hOf_val (k : Fin 512) : (hOf k).val = k.val / 64 := rfl
theorem dOf_val (k : Fin 512) : (dOf k).val = k.val % 64 := rfl

theorem hd_hOf_dOf (k : Fin 512) : hd (hOf k) (dOf k) = k :=
  Fin.ext (by rw [hd_val, hOf_val, dOf_val]; exact Nat.div_add_mod k.val 64)

/-- Every row of `X` through a dense layer: at (n, s, j) the sum over e of X (n, s, e) · W (j, e), plus b j. -/
def dense (X : Fin 4 → Fin 2048 → Fin 512 → EReal) (W : Fin 512 → Fin 512 → EReal) (b : Fin 512 → EReal)
    (n : Fin 4) (s : Fin 2048) (j : Fin 512) : EReal := (∑ e : Fin 512, X n s e * W j e) + b j

/-- The additive mask: 0 where the mask entry exceeds 1/2, the large negative constant elsewhere. -/
def maskOf (M : Fin 4 → Fin 2048 → EReal) (n : Fin 4) (k : Fin 2048) : EReal :=
  Scalar.select (FloatOps.cmpf (F := Ideal) (φ := .f32) .ogt (M n k) (Ideal.ofBits .f32 0x3F000000#32))
    (Ideal.ofBits .f32 0x00000000#32) (Ideal.ofBits .f32 0xCE6E6B28#32)

/-- Head h's score of query position q against key position k, plus the key's mask entry. -/
def scores (Q K : Fin 4 → Fin 2048 → Fin 512 → EReal) (A : Fin 4 → Fin 2048 → EReal)
    (n : Fin 4) (h : Fin 8) (q k : Fin 2048) : EReal := (∑ d : Fin 64, Q n q (hd h d) * K n k (hd h d)) + A n k

/-- The largest score of a query row, folded from −∞. -/
def rowMax (S : Fin 4 → Fin 8 → Fin 2048 → Fin 2048 → EReal) (n : Fin 4) (h : Fin 8) (q : Fin 2048) : EReal :=
  (Finset.univ : Finset (Fin 2048)).fold max (Ideal.ofBits .f32 0xFF800000#32) (fun k => S n h q k)

/-- The softmax along the key axis. -/
def softmax (S : Fin 4 → Fin 8 → Fin 2048 → Fin 2048 → EReal) (n : Fin 4) (h : Fin 8) (q k : Fin 2048) : EReal :=
  Ideal.div (Ideal.exp (S n h q k - rowMax S n h q)) (∑ k' : Fin 2048, Ideal.exp (S n h q k' - rowMax S n h q))

/-- Head h's blended value at query position q: the weights times the value rows. -/
def blend (P : Fin 4 → Fin 8 → Fin 2048 → Fin 2048 → EReal) (V : Fin 4 → Fin 2048 → Fin 512 → EReal)
    (n : Fin 4) (h : Fin 8) (q : Fin 2048) (d : Fin 64) : EReal := ∑ k : Fin 2048, P n h q k * V n k (hd h d)

/-- The heads laid side by side along the model axis and sent through the output layer. -/
def outp (B : Fin 4 → Fin 8 → Fin 2048 → Fin 64 → EReal) (W : Fin 512 → Fin 512 → EReal) (b : Fin 512 → EReal)
    (n : Fin 4) (s : Fin 2048) (e : Fin 512) : EReal := (∑ k : Fin 512, B n (hOf k) s (dOf k) * W e k) + b e

/-- The attention weights of the whole layer, from the argument arrays. -/
def weights (X0 X1 : Fin 4 → Fin 2048 → Fin 512 → EReal) (M : Fin 4 → Fin 2048 → EReal)
    (Wq : Fin 512 → Fin 512 → EReal) (bq : Fin 512 → EReal) (Wk : Fin 512 → Fin 512 → EReal) (bk : Fin 512 → EReal) :
    Fin 4 → Fin 8 → Fin 2048 → Fin 2048 → EReal :=
  softmax (scores (dense X1 Wq bq) (dense X0 Wk bk) (maskOf M))

/-- The layer's output, from the argument arrays. -/
def output (X0 X1 : Fin 4 → Fin 2048 → Fin 512 → EReal) (M : Fin 4 → Fin 2048 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wo : Fin 512 → Fin 512 → EReal) (bo : Fin 512 → EReal) :
    Fin 4 → Fin 2048 → Fin 512 → EReal :=
  outp (blend (weights X0 X1 M Wq bq Wk bk) (dense X0 Wv bv)) Wo bo

end Cert.Attention

end
-- ==== Proof.KReg2.lean ====
/-
  Region 2 of the attention program (one head's tile of 512 query rows per grid point), from blocks to the arrays.

  A grid point (n, h, qi) reads the tile's query rows, the head's whole transposed keys and values and the sequence's
  mask row, and stores two blocks: the tile's attention weights, [512, 2048], and its blended values, [512, 64]. The
  score of query row q against key k is the same sum whether read in the blocks or in the arrays, so both stored blocks
  are restrictions of whole-array functions (`attnArr`, `blendArr`), and the 4·8·4 tiles cover both output arrays.
-/
import proofs.«133988_j46273977647279_2_alg».proof.Proof.Gen.KernelIdeal.Frame
import proofs.«133988_j46273977647279_2_alg».proof.Proof.Bodies
import proofs.«133988_j46273977647279_2_alg».proof.Proof.Spec
import Idealize.ShloMosaic.Lib.Pipeline.Value
import Idealize.ShloMosaic.Lib.ValueIdx

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- Head h's score of query row q against key k, read in the arrays the region finds: queries [4, 8, 2048, 64],
    transposed keys [4, 8, 64, 2048], mask [4, 1, 2048]. -/
def headScore (Q : S4x8x2048x64.Idx → EReal) (Kt : S4x8x64x2048.Idx → EReal) (Mk : S4x1x2048.Idx → EReal)
    (n : Fin 4) (h : Fin 8) (q k : Fin 2048) : EReal :=
  (∑ d : Fin 64, Q (ix4 n h q d) * Kt (ix4 n h d k)) + Mk (ix3 n (0 : Fin 1) k)

/-- The attention weights as one function of the arrays. -/
def attnArr (Q : S4x8x2048x64.Idx → EReal) (Kt : S4x8x64x2048.Idx → EReal) (Mk : S4x1x2048.Idx → EReal) : S4x8x2048x2048.Idx → EReal :=
  fun i => Cert.Attention.softmax (headScore Q Kt Mk) (i 0) (i 1) (i 2) (i 3)

/-- The blended values as one function of the arrays. -/
def blendArr (Q : S4x8x2048x64.Idx → EReal) (Kt : S4x8x64x2048.Idx → EReal) (Vv : S4x8x2048x64.Idx → EReal) (Mk : S4x1x2048.Idx → EReal) :
    S4x8x2048x64.Idx → EReal :=
  fun i => ∑ k : Fin 2048, Cert.Attention.softmax (headScore Q Kt Mk) (i 0) (i 1) (i 2) k * Vv (ix4 (i 0) (i 1) k (i 3))

/-- The stored weights block as a function of its index. -/
theorem pay_fun4 (x0 : Vec Ideal S1x1x512x64 .bf16) (x1 : Vec Ideal S1x1x64x2048 .bf16) (x3 : Vec Ideal S1x1x2048 .f32) :
    Gen.k2_pay2 (F := Ideal) x0 x1 x3 = fun j => Bodies.blockWeight x0 x1 x3 (j 2) (j 3) := by
  funext j
  obtain ⟨u, v, p, k, rfl⟩ : ∃ (u v : Fin 1) (p : Fin 512) (k : Fin 2048), j = ix4 u v p k := ⟨j 0, j 1, j 2, j 3, eq_ix4 j⟩
  exact Bodies.k2_pay2_apply x0 x1 x3 u v p k

/-- The stored blended block as a function of its index. -/
theorem pay_fun5 (x0 : Vec Ideal S1x1x512x64 .bf16) (x1 : Vec Ideal S1x1x64x2048 .bf16) (x2 : Vec Ideal S1x1x2048x64 .bf16) (x3 : Vec Ideal S1x1x2048 .f32) :
    Gen.k2_pay3 (F := Ideal) x0 x1 x2 x3
      = fun j => ∑ k : Fin 2048, Bodies.blockWeight x0 x1 x3 (j 2) k * x2 (ix4 (0 : Fin 1) (0 : Fin 1) k (j 3)) := by
  funext j
  obtain ⟨u, v, p, d, rfl⟩ : ∃ (u v : Fin 1) (p : Fin 512) (d : Fin 64), j = ix4 u v p d := ⟨j 0, j 1, j 2, j 3, eq_ix4 j⟩
  exact Bodies.k2_pay3_apply x0 x1 x2 x3 u v p d

/-- The index maps over the grid: every window's sequence and head index is the weights window's, the query tile's row
    block too; keys, values and mask are whole along their other axes. -/
theorem idx_facts : ∀ t : Fin cfg2.N,
    win2_0.index t (0 : Fin 4) = win2_4.index t (0 : Fin 4) ∧ win2_0.index t (1 : Fin 4) = win2_4.index t (1 : Fin 4)
    ∧ win2_0.index t (2 : Fin 4) = win2_4.index t (2 : Fin 4) ∧ win2_0.index t (3 : Fin 4) = 0
    ∧ win2_1.index t (0 : Fin 4) = win2_4.index t (0 : Fin 4) ∧ win2_1.index t (1 : Fin 4) = win2_4.index t (1 : Fin 4)
    ∧ win2_1.index t (2 : Fin 4) = 0 ∧ win2_1.index t (3 : Fin 4) = 0
    ∧ win2_2.index t (0 : Fin 4) = win2_4.index t (0 : Fin 4) ∧ win2_2.index t (1 : Fin 4) = win2_4.index t (1 : Fin 4)
    ∧ win2_2.index t (2 : Fin 4) = 0 ∧ win2_2.index t (3 : Fin 4) = 0
    ∧ win2_3.index t (0 : Fin 3) = win2_4.index t (0 : Fin 4) ∧ win2_3.index t (1 : Fin 3) = 0 ∧ win2_3.index t (2 : Fin 3) = 0
    ∧ win2_5.index t (0 : Fin 4) = win2_4.index t (0 : Fin 4) ∧ win2_5.index t (1 : Fin 4) = win2_4.index t (1 : Fin 4)
    ∧ win2_5.index t (2 : Fin 4) = win2_4.index t (2 : Fin 4) ∧ win2_5.index t (3 : Fin 4) = 0
    ∧ win2_4.index t (0 : Fin 4) ≤ 3 ∧ win2_4.index t (1 : Fin 4) ≤ 7 ∧ win2_4.index t (2 : Fin 4) ≤ 3 ∧ win2_4.index t (3 : Fin 4) = 0 :=
  (by decide +kernel : ∀ t : Fin grid2.N, _)

/-- Every tile is some point's. -/
theorem idx_onto : ∀ (q0 : Fin 4) (q1 : Fin 8) (q2 : Fin 4), ∃ t : Fin cfg2.N, win2_4.index t = ![q0.val, q1.val, q2.val, 0] :=
  (by decide +kernel : ∀ (q0 : Fin 4) (q1 : Fin 8) (q2 : Fin 4), ∃ t : Fin grid2.N, win2_4.index t = ![q0.val, q1.val, q2.val, 0])

section Point

variable (Q : S4x8x2048x64.Idx → EReal) (Kt : S4x8x64x2048.Idx → EReal) (Vv : S4x8x2048x64.Idx → EReal) (Mk : S4x1x2048.Idx → EReal)
variable (t : Fin cfg2.N) (p : Fin 512) (n : Fin 4) (h : Fin 8) (q : Fin 2048)

/-- A score read in point t's blocks is the score read in the arrays, at the sequence, head and row the tile sits at. -/
theorem score_eq (hn : n.val = win2_4.index t (0 : Fin 4)) (hh : h.val = win2_4.index t (1 : Fin 4))
    (hq : q.val = win2_4.index t (2 : Fin 4) * 512 + p.val) (k : Fin 2048) :
    Bodies.blockScore (fun y => Q (((cfg2.win 0).blk t).view.emb y)) (fun y => Kt (((cfg2.win 1).blk t).view.emb y))
        (fun y => Mk (((cfg2.win 3).blk t).view.emb y)) p k
      = headScore Q Kt Mk n h q k := by
  obtain ⟨a00, a01, a02, a03, a10, a11, a12, a13, a20, a21, a22, a23, a30, a31, a32, a50, a51, a52, a53, b0, b1, b2, b3⟩ := idx_facts t
  have e0 : ∀ d : Fin 64, ((cfg2.win 0).blk t).view.emb (ix4 (0 : Fin 1) (0 : Fin 1) p d) = ix4 n h q d := fun d => by
    funext a; apply Fin.ext
    match a with
    | ⟨0, _⟩ => show win2_0.index t (0 : Fin 4) * 1 + 1 * 0 = n.val; omega
    | ⟨1, _⟩ => show win2_0.index t (1 : Fin 4) * 1 + 1 * 0 = h.val; omega
    | ⟨2, _⟩ => show win2_0.index t (2 : Fin 4) * 512 + 1 * p.val = q.val; omega
    | ⟨3, _⟩ => show win2_0.index t (3 : Fin 4) * 64 + 1 * d.val = d.val; omega
  have e1 : ∀ d : Fin 64, ((cfg2.win 1).blk t).view.emb (ix4 (0 : Fin 1) (0 : Fin 1) d k) = ix4 n h d k := fun d => by
    funext a; apply Fin.ext
    match a with
    | ⟨0, _⟩ => show win2_1.index t (0 : Fin 4) * 1 + 1 * 0 = n.val; omega
    | ⟨1, _⟩ => show win2_1.index t (1 : Fin 4) * 1 + 1 * 0 = h.val; omega
    | ⟨2, _⟩ => show win2_1.index t (2 : Fin 4) * 64 + 1 * d.val = d.val; omega
    | ⟨3, _⟩ => show win2_1.index t (3 : Fin 4) * 2048 + 1 * k.val = k.val; omega
  have e3 : ((cfg2.win 3).blk t).view.emb (ix3 (0 : Fin 1) (0 : Fin 1) k) = ix3 n (0 : Fin 1) k := by
    funext a; apply Fin.ext
    match a with
    | ⟨0, _⟩ => show win2_3.index t (0 : Fin 3) * 1 + 1 * 0 = n.val; omega
    | ⟨1, _⟩ => show win2_3.index t (1 : Fin 3) * 1 + 1 * 0 = 0; omega
    | ⟨2, _⟩ => show win2_3.index t (2 : Fin 3) * 2048 + 1 * k.val = k.val; omega
  unfold Bodies.blockScore headScore
  exact congrArg₂ (· + ·) (Finset.sum_congr rfl fun d _ => congrArg₂ (· * ·) (congrArg Q (e0 d)) (congrArg Kt (e1 d))) (congrArg Mk e3)

/-- So a weight read in point t's blocks is the softmax of the arrays' scores there. -/
theorem weight_eq (hn : n.val = win2_4.index t (0 : Fin 4)) (hh : h.val = win2_4.index t (1 : Fin 4))
    (hq : q.val = win2_4.index t (2 : Fin 4) * 512 + p.val) (k : Fin 2048) :
    Bodies.blockWeight (fun y => Q (((cfg2.win 0).blk t).view.emb y)) (fun y => Kt (((cfg2.win 1).blk t).view.emb y))
        (fun y => Mk (((cfg2.win 3).blk t).view.emb y)) p k
      = Cert.Attention.softmax (headScore Q Kt Mk) n h q k := by
  unfold Bodies.blockWeight Cert.Attention.softmax Cert.Attention.rowMax
  simp only [score_eq Q Kt Mk t p n h q hn hh hq]

end Point

/-- One point's weights block is `attnArr` read at the block's place. -/
theorem point_eq4 (Q : S4x8x2048x64.Idx → EReal) (Kt : S4x8x64x2048.Idx → EReal) (Mk : S4x1x2048.Idx → EReal)
    (t : Fin cfg2.N) (j : S1x1x512x2048.Idx) :
    Bodies.blockWeight (fun y => Q (((cfg2.win 0).blk t).view.emb y)) (fun y => Kt (((cfg2.win 1).blk t).view.emb y))
        (fun y => Mk (((cfg2.win 3).blk t).view.emb y)) (j 2) (j 3)
      = attnArr Q Kt Mk (((cfg2.win 4).blk t).view.emb j) := by
  obtain ⟨a00, a01, a02, a03, a10, a11, a12, a13, a20, a21, a22, a23, a30, a31, a32, a50, a51, a52, a53, b0, b1, b2, b3⟩ := idx_facts t
  have hj0 : (j 0).val < 1 := (j 0).isLt
  have hj1 : (j 1).val < 1 := (j 1).isLt
  have hk : (((cfg2.win 4).blk t).view.emb j) 3 = j 3 :=
    Fin.ext (by show win2_4.index t (3 : Fin 4) * 2048 + 1 * (j 3).val = (j 3).val; omega)
  unfold attnArr
  rw [hk]
  exact weight_eq Q Kt Mk t (j 2) _ _ _
    (by show win2_4.index t (0 : Fin 4) * 1 + 1 * (j 0).val = win2_4.index t (0 : Fin 4); omega)
    (by show win2_4.index t (1 : Fin 4) * 1 + 1 * (j 1).val = win2_4.index t (1 : Fin 4); omega)
    (by show win2_4.index t (2 : Fin 4) * 512 + 1 * (j 2).val = win2_4.index t (2 : Fin 4) * 512 + (j 2).val; omega) (j 3)

/-- One point's blended block is `blendArr` read at the block's place. -/
theorem point_eq5 (Q : S4x8x2048x64.Idx → EReal) (Kt : S4x8x64x2048.Idx → EReal) (Vv : S4x8x2048x64.Idx → EReal) (Mk : S4x1x2048.Idx → EReal)
    (t : Fin cfg2.N) (j : S1x1x512x64.Idx) :
    (∑ k : Fin 2048, Bodies.blockWeight (fun y => Q (((cfg2.win 0).blk t).view.emb y)) (fun y => Kt (((cfg2.win 1).blk t).view.emb y))
        (fun y => Mk (((cfg2.win 3).blk t).view.emb y)) (j 2) k * Vv (((cfg2.win 2).blk t).view.emb (ix4 (0 : Fin 1) (0 : Fin 1) k (j 3))))
      = blendArr Q Kt Vv Mk (((cfg2.win 5).blk t).view.emb j) := by
  obtain ⟨a00, a01, a02, a03, a10, a11, a12, a13, a20, a21, a22, a23, a30, a31, a32, a50, a51, a52, a53, b0, b1, b2, b3⟩ := idx_facts t
  have hj0 : (j 0).val < 1 := (j 0).isLt
  have hj1 : (j 1).val < 1 := (j 1).isLt
  have e2 : ∀ k : Fin 2048, ((cfg2.win 2).blk t).view.emb (ix4 (0 : Fin 1) (0 : Fin 1) k (j 3))
      = ix4 ((((cfg2.win 5).blk t).view.emb j) 0) ((((cfg2.win 5).blk t).view.emb j) 1) k ((((cfg2.win 5).blk t).view.emb j) 3) := fun k => by
    funext a; apply Fin.ext
    match a with
    | ⟨0, _⟩ => show win2_2.index t (0 : Fin 4) * 1 + 1 * 0 = win2_5.index t (0 : Fin 4) * 1 + 1 * (j 0).val; omega
    | ⟨1, _⟩ => show win2_2.index t (1 : Fin 4) * 1 + 1 * 0 = win2_5.index t (1 : Fin 4) * 1 + 1 * (j 1).val; omega
    | ⟨2, _⟩ => show win2_2.index t (2 : Fin 4) * 2048 + 1 * k.val = k.val; omega
    | ⟨3, _⟩ => show win2_2.index t (3 : Fin 4) * 64 + 1 * (j 3).val = win2_5.index t (3 : Fin 4) * 64 + 1 * (j 3).val; omega
  unfold blendArr
  refine Finset.sum_congr rfl fun k _ => congrArg₂ (· * ·) ?_ (congrArg Vv (e2 k))
  exact weight_eq Q Kt Mk t (j 2) _ _ _
    (by show win2_5.index t (0 : Fin 4) * 1 + 1 * (j 0).val = win2_4.index t (0 : Fin 4); omega)
    (by show win2_5.index t (1 : Fin 4) * 1 + 1 * (j 1).val = win2_4.index t (1 : Fin 4); omega)
    (by show win2_5.index t (2 : Fin 4) * 512 + 1 * (j 2).val = win2_4.index t (2 : Fin 4) * 512 + (j 2).val; omega) k

/-- What point t writes back to the weights array. -/
theorem flushed_eq4 (c : Dev nD) (t : Fin cfg2.N) :
    (dat2 V c).flushed 4 t = ((cfg2.win 4).blk t).view.read (Elt Ideal) (attnArr (V c main_v11) (V c main_v13) (V c main_v20)) := by
  show (cfg2.win 4).cut (grid2.coords t) ((dat2 V c).after 4 t) = _
  rw [after2_4]
  unfold out2_4
  rw [View.canon_unit_zero hz4]
  simp only [View.ld_unit_zero (S := S1x1x512x64) hz4, View.ld_unit_zero (S := S1x1x64x2048) hz4, View.ld_unit_zero (S := S1x1x2048) hz3]
  rw [pay_fun4]
  funext j
  exact point_eq4 (V c main_v11) (V c main_v13) (V c main_v20) t j

/-- What point t writes back to the blended array. -/
theorem flushed_eq5 (c : Dev nD) (t : Fin cfg2.N) :
    (dat2 V c).flushed 5 t = ((cfg2.win 5).blk t).view.read (Elt Ideal) (blendArr (V c main_v11) (V c main_v13) (V c main_v15) (V c main_v20)) := by
  show (cfg2.win 5).cut (grid2.coords t) ((dat2 V c).after 5 t) = _
  rw [after2_5]
  unfold out2_5
  rw [View.canon_unit_zero hz4]
  simp only [View.ld_unit_zero (S := S1x1x512x64) hz4, View.ld_unit_zero (S := S1x1x64x2048) hz4, View.ld_unit_zero (S := S1x1x2048x64) hz4,
    View.ld_unit_zero (S := S1x1x2048) hz3]
  rw [pay_fun5]
  funext j
  exact point_eq5 (V c main_v11) (V c main_v13) (V c main_v15) (V c main_v20) t j

/-- An index of the weights array is in point t's block iff each coordinate is in the block's range. -/
theorem mem_blk4 (t : Fin cfg2.N) (i : S4x8x2048x2048.Idx) :
    i ∈ ((cfg2.win 4).blk t).view.set ↔ ∀ a : Fin 4, win2_4.index t a * S1x1x512x2048.size a ≤ (i a).val ∧ (i a).val < win2_4.index t a * S1x1x512x2048.size a + S1x1x512x2048.size a := by
  show i ∈ ((View.whole main_v21_0).slice (win2_4.rect t)).set ↔ _
  rw [View.set_slice_whole, Rect.mem_set_unit]
  exact Iff.rfl

/-- The same for the blended array. -/
theorem mem_blk5 (t : Fin cfg2.N) (i : S4x8x2048x64.Idx) :
    i ∈ ((cfg2.win 5).blk t).view.set ↔ ∀ a : Fin 4, win2_5.index t a * S1x1x512x64.size a ≤ (i a).val ∧ (i a).val < win2_5.index t a * S1x1x512x64.size a + S1x1x512x64.size a := by
  show i ∈ ((View.whole main_v21_1).slice (win2_5.rect t)).set ↔ _
  rw [View.set_slice_whole, Rect.mem_set_unit]
  exact Iff.rfl

/-- Entry (n, h, q, k) of the weights lies in the tile (n, h, q / 512). -/
theorem cover4 (i : S4x8x2048x2048.Idx) : ∃ t : Fin cfg2.N, (cfg2.win 4).flush t = true ∧ i ∈ ((cfg2.win 4).blk t).view.set := by
  have hi0 : (i 0).val < 4 := (i 0).isLt
  have hi1 : (i 1).val < 8 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win2_4.index t (0 : Fin 4) = (i 0).val := congrFun ht 0
  have q1 : win2_4.index t (1 : Fin 4) = (i 1).val := congrFun ht 1
  have q2 : win2_4.index t (2 : Fin 4) = (i 2).val / 512 := congrFun ht 2
  have q3 : win2_4.index t (3 : Fin 4) = 0 := congrFun ht 3
  refine ⟨t, flush2_4 t, ?_⟩
  rw [mem_blk4]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 1 ≤ (i 1).val ∧ (i 1).val < win2_4.index t (1 : Fin 4) * 1 + 1; omega
  | ⟨2, _⟩ => show win2_4.index t (2 : Fin 4) * 512 ≤ (i 2).val ∧ (i 2).val < win2_4.index t (2 : Fin 4) * 512 + 512; omega
  | ⟨3, _⟩ => show win2_4.index t (3 : Fin 4) * 2048 ≤ (i 3).val ∧ (i 3).val < win2_4.index t (3 : Fin 4) * 2048 + 2048; omega

/-- Entry (n, h, q, d) of the blended values lies in the tile (n, h, q / 512). -/
theorem cover5 (i : S4x8x2048x64.Idx) : ∃ t : Fin cfg2.N, (cfg2.win 5).flush t = true ∧ i ∈ ((cfg2.win 5).blk t).view.set := by
  have hi0 : (i 0).val < 4 := (i 0).isLt
  have hi1 : (i 1).val < 8 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨a00, a01, a02, a03, a10, a11, a12, a13, a20, a21, a22, a23, a30, a31, a32, a50, a51, a52, a53, b0, b1, b2, b3⟩ := idx_facts t
  have q0 : win2_4.index t (0 : Fin 4) = (i 0).val := congrFun ht 0
  have q1 : win2_4.index t (1 : Fin 4) = (i 1).val := congrFun ht 1
  have q2 : win2_4.index t (2 : Fin 4) = (i 2).val / 512 := congrFun ht 2
  refine ⟨t, flush2_5 t, ?_⟩
  rw [mem_blk5]
  intro a
  match a with
  | ⟨0, _⟩ => show win2_5.index t (0 : Fin 4) * 1 ≤ (i 0).val ∧ (i 0).val < win2_5.index t (0 : Fin 4) * 1 + 1; omega
  | ⟨1, _⟩ => show win2_5.index t (1 : Fin 4) * 1 ≤ (i 1).val ∧ (i 1).val < win2_5.index t (1 : Fin 4) * 1 + 1; omega
  | ⟨2, _⟩ => show win2_5.index t (2 : Fin 4) * 512 ≤ (i 2).val ∧ (i 2).val < win2_5.index t (2 : Fin 4) * 512 + 512; omega
  | ⟨3, _⟩ => show win2_5.index t (3 : Fin 4) * 64 ≤ (i 3).val ∧ (i 3).val < win2_5.index t (3 : Fin 4) * 64 + 64; omega

/-- The weights array after the region. -/
theorem final4 (c : Dev nD) : (dat2 V c).arrAt 4 cfg2.N = attnArr (V c main_v11) (V c main_v13) (V c main_v20) :=
  (dat2 V c).arrAt_eq_of_cover 4 _ (fun t _ => flushed_eq4 V c t) cover4

/-- The blended array after the region. -/
theorem final5 (c : Dev nD) : (dat2 V c).arrAt 5 cfg2.N = blendArr (V c main_v11) (V c main_v13) (V c main_v15) (V c main_v20) :=
  (dat2 V c).arrAt_eq_of_cover 5 _ (fun t _ => flushed_eq5 V c t) cover5

end Cert.KernelIdeal.Reg2

end
-- ==== Proof.KReg3.lean ====
/-
  Region 3 of the attention program (a dense layer on a tile of 1024 rows per grid point), from blocks to the array.

  Each grid point stores one [1024, 512] block of the output: the body's value of the point's input blocks. The
  activations' row block moves with the output's; weights and bias are the same whole arrays at every point. So the
  blocks are the restrictions of ONE function of the arrays the region finds, `rowsDense`, and since the eight row
  blocks cover the output array, the array after the region is that function.
-/
import proofs.«133988_j46273977647279_2_alg».proof.Proof.Gen.KernelIdeal.Frame
import proofs.«133988_j46273977647279_2_alg».proof.Proof.Bodies
import Idealize.ShloMosaic.Lib.Pipeline.Value
import Idealize.ShloMosaic.Lib.ValueIdx

set_option maxRecDepth 16384

noncomputable section

open scoped BigOperators

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows through a dense layer: entry (r, j) is the sum over k of A (r, k) · W (j, k), plus the bias row's entry j. -/
def rowsDense (A : S8192x512.Idx → EReal) (W : S512x512.Idx → EReal) (B : S1x512.Idx → EReal) : S8192x512.Idx → EReal :=
  fun i => (∑ k : Fin 512, A (ix2 (i 0) k) * W (ix2 (i 1) k)) + B (ix2 (0 : Fin 1) (i 1))

/-- The body's stored block as a function of its index. -/
theorem pay_fun (x0 : Vec Ideal S1024x512 .bf16) (x1 : Vec Ideal S512x512 .f32) (x2 : Vec Ideal S1x512 .f32) :
    Gen.k3_pay1 (F := Ideal) x0 x1 x2 = fun j => (∑ k : Fin 512, x0 (ix2 (j 0) k) * x1 (ix2 (j 1) k)) + x2 (ix2 (0 : Fin 1) (j 1)) := by
  funext j
  obtain ⟨p, q, rfl⟩ : ∃ (p : Fin 1024) (q : Fin 512), j = ix2 p q := ⟨j 0, j 1, eq_ix2 j⟩
  exact Bodies.k3_pay1_apply x0 x1 x2 p q

/-- The index maps over the grid: the row block of the activations moves with the output's; weights and bias stay. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 7 ∧ win3_3.index t (1 : Fin 2) = 0 :=
  (by decide +kernel : ∀ t : Fin grid3.N, _)

/-- Every row block is some point's. -/
theorem idx_onto : ∀ (q0 : Fin 8), ∃ t : Fin cfg3.N, win3_3.index t = ![q0.val, 0] :=
  (by decide +kernel : ∀ (q0 : Fin 8), ∃ t : Fin grid3.N, win3_3.index t = ![q0.val, 0])

/-- One point's block, read where the index maps put it, is the dense layer read at the block's place in the array. -/
theorem point_eq (A : S8192x512.Idx → EReal) (W : S512x512.Idx → EReal) (B : S1x512.Idx → EReal) (t : Fin cfg3.N) (j : S1024x512.Idx) :
    (∑ k : Fin 512, A (((cfg3.win 0).blk t).view.emb (ix2 (j 0) k)) * W (((cfg3.win 1).blk t).view.emb (ix2 (j 1) k)))
      + B (((cfg3.win 2).blk t).view.emb (ix2 (0 : Fin 1) (j 1)))
    = rowsDense A W B (((cfg3.win 3).blk t).view.emb j) := by
  obtain ⟨e0, e1, e2, e3, e4, e5, e6, e7⟩ := idx_facts t
  have h0 : ∀ k : Fin 512, ((cfg3.win 0).blk t).view.emb (ix2 (j 0) k) = ix2 ((((cfg3.win 3).blk t).view.emb j) 0) k := fun k => by
    funext a; apply Fin.ext
    match a with
    | ⟨0, _⟩ => show win3_0.index t (0 : Fin 2) * 1024 + 1 * (j 0).val = win3_3.index t (0 : Fin 2) * 1024 + 1 * (j 0).val; omega
    | ⟨1, _⟩ => show win3_0.index t (1 : Fin 2) * 512 + 1 * k.val = k.val; omega
  have h1 : ∀ k : Fin 512, ((cfg3.win 1).blk t).view.emb (ix2 (j 1) k) = ix2 ((((cfg3.win 3).blk t).view.emb j) 1) k := fun k => by
    funext a; apply Fin.ext
    match a with
    | ⟨0, _⟩ => show win3_1.index t (0 : Fin 2) * 512 + 1 * (j 1).val = win3_3.index t (1 : Fin 2) * 512 + 1 * (j 1).val; omega
    | ⟨1, _⟩ => show win3_1.index t (1 : Fin 2) * 512 + 1 * k.val = k.val; omega
  have h2 : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 512 + 1 * (j 1).val = win3_3.index t (1 : Fin 2) * 512 + 1 * (j 1).val; omega
  unfold rowsDense
  rw [h2]
  exact congrArg (· + _) (Finset.sum_congr rfl fun k _ => congrArg₂ (· * ·) (congrArg A (h0 k)) (congrArg W (h1 k)))

/-- What point t writes back is block t of the dense layer of the arrays the region finds. -/
theorem flushed_eq (c : Dev nD) (t : Fin cfg3.N) :
    (dat3 V c).flushed 3 t = ((cfg3.win 3).blk t).view.read (Elt Ideal) (rowsDense (V c main_v23) (V c main_arg10) (V c main_v24)) := by
  show (cfg3.win 3).cut (grid3.coords t) ((dat3 V c).after 3 t) = _
  rw [after3_3]
  unfold out3_3
  rw [View.canon_unit_zero hz]
  simp only [View.ld_unit_zero (S := S1024x512) hz, View.ld_unit_zero (S := S512x512) hz, View.ld_unit_zero (S := S1x512) hz]
  rw [pay_fun]
  funext j
  exact point_eq (V c main_v23) (V c main_arg10) (V c main_v24) t j

/-- An index is in point t's block iff each coordinate is in the block's range on its axis. -/
theorem mem_blk (t : Fin cfg3.N) (i : S8192x512.Idx) :
    i ∈ ((cfg3.win 3).blk t).view.set ↔ ∀ a : Fin 2, win3_3.index t a * S1024x512.size a ≤ (i a).val ∧ (i a).val < win3_3.index t a * S1024x512.size a + S1024x512.size a := by
  show i ∈ ((View.whole main_v25).slice (win3_3.rect t)).set ↔ _
  rw [View.set_slice_whole, Rect.mem_set_unit]
  exact Iff.rfl

/-- Row r lies in the block of the point whose row block is r / 1024. -/
theorem cover (i : S8192x512.Idx) : ∃ t : Fin cfg3.N, (cfg3.win 3).flush t = true ∧ i ∈ ((cfg3.win 3).blk t).view.set := by
  have hi0 : (i 0).val < 8192 := (i 0).isLt
  have hi1 : (i 1).val < 512 := (i 1).isLt
  obtain ⟨t, ht⟩ := idx_onto ⟨(i 0).val / 1024, by omega⟩
  have q0 : win3_3.index t (0 : Fin 2) = (i 0).val / 1024 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 512 ≤ (i 1).val ∧ (i 1).val < win3_3.index t (1 : Fin 2) * 512 + 512; omega

/-- The output array after the region: the dense layer of the arrays the region found. -/
theorem final (c : Dev nD) : (dat3 V c).arrAt 3 cfg3.N = rowsDense (V c main_v23) (V c main_arg10) (V c main_v24) :=
  (dat3 V c).arrAt_eq_of_cover 3 _ (fun t _ => flushed_eq V c t) cover

end Cert.KernelIdeal.Reg3

end
-- ==== Proof.KGlue.lean ====
/-
  The attention program's buffers at each boundary between its host stretches and its four kernel regions, as whole arrays.

  The fold of the program's segments from the launch memory gives every buffer's contents at every boundary. Followed
  back from the two results: the output is the last dense region's array, reshaped; that region reads the blended
  values, transposed and reshaped; the attention region reads the projected queries, keys and values, reshaped into
  heads and transposed, and the mask; the two projection regions read the reshaped inputs and the (stacked) weights.
  Each step is one host operation's result or one region's array, read off the fold.
-/
import proofs.«133988_j46273977647279_2_alg».proof.Proof.Gen.KernelIdeal.Frame
import proofs.«133988_j46273977647279_2_alg».proof.Proof.KReg0
import proofs.«133988_j46273977647279_2_alg».proof.Proof.KReg1
import proofs.«133988_j46273977647279_2_alg».proof.Proof.KReg2
import proofs.«133988_j46273977647279_2_alg».proof.Proof.KReg3
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments at the boundaries where a later stretch or region reads them -/

theorem w2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results

theorem w2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

theorem w2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem w2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

theorem w2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

theorem w2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results

theorem w2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results

theorem w2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results

theorem w4_arg2 (c : Dev nD) : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  exact w2_arg2 m ρ c

theorem w4_arg10 (c : Dev nD) : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results
  exact w2_arg10 m ρ c

theorem w4_arg11 (c : Dev nD) : W4 m ρ c (Proc.devRef .tc main_arg11) = m ((c : Thread nD τ).loc main_arg11) := by
  rw [W4_of_ne m ρ c main_arg11 (by decide)]
  show StableHlo.after hostOps1 (W2 m ρ c) (Proc.devRef .tc main_arg11) = _
  after_results
  exact w2_arg11 m ρ c

theorem w8_arg10 (c : Dev nD) : W8 m ρ c (Proc.devRef .tc main_arg10) = m ((c : Thread nD τ).loc main_arg10) := by
  rw [W8_of_ne m ρ c main_arg10 (by decide)]
  show StableHlo.after hostOps2_2 (StableHlo.after hostOps2_1 (StableHlo.after hostOps2 (W4 m ρ c))) (Proc.devRef .tc main_arg10) = _
  after_results
  exact w4_arg10 m ρ c

theorem w8_arg11 (c : Dev nD) : W8 m ρ c (Proc.devRef .tc main_arg11) = m ((c : Thread nD τ).loc main_arg11) := by
  rw [W8_of_ne m ρ c main_arg11 (by decide)]
  show StableHlo.after hostOps2_2 (StableHlo.after hostOps2_1 (StableHlo.after hostOps2 (W4 m ρ c))) (Proc.devRef .tc main_arg11) = _
  after_results
  exact w4_arg11 m ρ c

/-! ## The query projection (region 0) -/

theorem e1_v0 (c : Dev nD) : W1 m ρ c (Proc.devRef .tc main_v0)
    = shapeCast S8192x512 (m ((c : Thread nD τ).loc main_arg1)) shapeCasts_S4x2048x512_S8192x512 := by
  show StableHlo.after hostOps0 (W0 m ρ c) (Proc.devRef .tc main_v0) = _
  after_results
  rfl

theorem e1_v1 (c : Dev nD) : W1 m ρ c (Proc.devRef .tc main_v1)
    = shapeCast S1x512 (m ((c : Thread nD τ).loc main_arg5)) shapeCasts_S512_S1x512 := by
  show StableHlo.after hostOps0 (W0 m ρ c) (Proc.devRef .tc main_v1) = _
  after_results
  rfl

theorem e1_arg4 (c : Dev nD) : W1 m ρ c (Proc.devRef .tc main_arg4) = m ((c : Thread nD τ).loc main_arg4) := by
  show StableHlo.after hostOps0 (W0 m ρ c) (Proc.devRef .tc main_arg4) = _
  after_results

/-- The projected queries, one row per (sequence, position). -/
def qFlat (c : Dev nD) : S8192x512.Idx → EReal :=
  Reg0.rowsDense (shapeCast S8192x512 (m ((c : Thread nD τ).loc main_arg1)) shapeCasts_S4x2048x512_S8192x512) (m ((c : Thread nD τ).loc main_arg4))
    (shapeCast S1x512 (m ((c : Thread nD τ).loc main_arg5)) shapeCasts_S512_S1x512)

theorem w2_v2 (c : Dev nD) : W2 m ρ c (Proc.devRef .tc main_v2) = qFlat m c :=
  (W2_arr m ρ c 3).trans ((Reg0.final (V1 m ρ) c).trans (by
    show Reg0.rowsDense (W1 m ρ c (Proc.devRef .tc main_v0)) (W1 m ρ c (Proc.devRef .tc main_arg4)) (W1 m ρ c (Proc.devRef .tc main_v1)) = _
    rw [e1_v0, e1_arg4, e1_v1]; rfl))

/-! ## The stacked key/value projection (region 1) -/

theorem e3_v5 (c : Dev nD) : W3 m ρ c (Proc.devRef .tc main_v5)
    = shapeCast S8192x512 (m ((c : Thread nD τ).loc main_arg0)) shapeCasts_S4x2048x512_S8192x512 := by
  show StableHlo.after hostOps1 (W2 m ρ c) (Proc.devRef .tc main_v5) = _
  after_results
  rw [w2_arg0]
  rfl

theorem e3_v3 (c : Dev nD) : W3 m ρ c (Proc.devRef .tc main_v3)
    = concatenate S1024x512 0 [⟨S512x512, (m ((c : Thread nD τ).loc main_arg6))⟩, ⟨S512x512, (m ((c : Thread nD τ).loc main_arg8))⟩] concatenates_S512x512_S512x512_S1024x512_d0 := by
  show StableHlo.after hostOps1 (W2 m ρ c) (Proc.devRef .tc main_v3) = _
  after_results
  rw [w2_arg6, w2_arg8]

theorem e3_v6 (c : Dev nD) : W3 m ρ c (Proc.devRef .tc main_v6)
    = shapeCast S1x1024 (concatenate S1024 0 [⟨S512, (m ((c : Thread nD τ).loc main_arg7))⟩, ⟨S512, (m ((c : Thread nD τ).loc main_arg9))⟩] concatenates_S512_S512_S1024_d0) shapeCasts_S1024_S1x1024 := by
  show StableHlo.after hostOps1 (W2 m ρ c) (Proc.devRef .tc main_v6) = _
  after_results
  rw [w2_arg7, w2_arg9]
  rfl

/-- The projected keys (columns 0–511) and values (columns 512–1023), one row per (sequence, position). -/
def kvFlat (c : Dev nD) : S8192x1024.Idx → EReal :=
  Reg1.rowsDense (shapeCast S8192x512 (m ((c : Thread nD τ).loc main_arg0)) shapeCasts_S4x2048x512_S8192x512)
    (concatenate S1024x512 0 [⟨S512x512, (m ((c : Thread nD τ).loc main_arg6))⟩, ⟨S512x512, (m ((c : Thread nD τ).loc main_arg8))⟩] concatenates_S512x512_S512x512_S1024x512_d0)
    (shapeCast S1x1024 (concatenate S1024 0 [⟨S512, (m ((c : Thread nD τ).loc main_arg7))⟩, ⟨S512, (m ((c : Thread nD τ).loc main_arg9))⟩] concatenates_S512_S512_S1024_d0) shapeCasts_S1024_S1x1024)

theorem w4_v7 (c : Dev nD) : W4 m ρ c (Proc.devRef .tc main_v7) = kvFlat m c :=
  (W4_arr m ρ c 3).trans ((Reg1.final (V3 m ρ) c).trans (by
    show Reg1.rowsDense (W3 m ρ c (Proc.devRef .tc main_v5)) (W3 m ρ c (Proc.devRef .tc main_v3)) (W3 m ρ c (Proc.devRef .tc main_v6)) = _
    rw [e3_v5, e3_v3, e3_v6]; rfl))

theorem w4_v2 (c : Dev nD) : W4 m ρ c (Proc.devRef .tc main_v2) = qFlat m c := by
  rw [W4_of_ne m ρ c main_v2 (by decide)]
  show StableHlo.after hostOps1 (W2 m ρ c) (Proc.devRef .tc main_v2) = _
  after_results
  exact w2_v2 m ρ c

/-! ## The attention region's entry (after the three stretches that follow region 1) -/

/-- Queries split into heads: [4, 8, 2048, 64]. -/
def qHeads (c : Dev nD) : S4x8x2048x64.Idx → EReal :=
  transpose S4x8x2048x64 [0, 2, 1, 3] (shapeCast S4x2048x8x64 (qFlat m c) shapeCasts_S8192x512_S4x2048x8x64)
    transposes_S4x2048x8x64_S4x8x2048x64_0_2_1_3

/-- Keys split into heads and transposed: [4, 8, 64, 2048]. -/
def kHeadsT (c : Dev nD) : S4x8x64x2048.Idx → EReal :=
  transpose S4x8x64x2048 [0, 2, 3, 1]
    (shapeCast S4x2048x8x64 (extractStridedSlice S8192x512 ![0, 0] (kvFlat m c) slices_S8192x1024_S8192x512_0_0) shapeCasts_S8192x512_S4x2048x8x64)
    transposes_S4x2048x8x64_S4x8x64x2048_0_2_3_1

/-- Values split into heads: [4, 8, 2048, 64]. -/
def vHeads (c : Dev nD) : S4x8x2048x64.Idx → EReal :=
  transpose S4x8x2048x64 [0, 2, 1, 3]
    (shapeCast S4x2048x8x64 (extractStridedSlice S8192x512 ![0, 512] (kvFlat m c) slices_S8192x1024_S8192x512_0_512) shapeCasts_S8192x512_S4x2048x8x64)
    transposes_S4x2048x8x64_S4x8x2048x64_0_2_1_3

/-- The additive mask, one row per sequence: [4, 1, 2048]. -/
def maskArr (c : Dev nD) : S4x1x2048.Idx → EReal :=
  broadcastInDim S4x1x2048 ![0, 2] bcast_S4x2048_S4x1x2048_0_2
    (select (cmpf .ogt (m ((c : Thread nD τ).loc main_arg2)) (broadcastInDim S4x2048 ![] bcast_S_S4x2048 (constant (F := Ideal) S_ .f32 0x3F000000#32)))
      (broadcastInDim S4x2048 ![] bcast_S_S4x2048 (constant (F := Ideal) S_ .f32 0x00000000#32))
      (broadcastInDim S4x2048 ![] bcast_S_S4x2048 (constant (F := Ideal) S_ .f32 0xCE6E6B28#32)))

theorem e7_v11 (c : Dev nD) : W7 m ρ c (Proc.devRef .tc main_v11) = qHeads m c := by
  show StableHlo.after hostOps2_2 (StableHlo.after hostOps2_1 (StableHlo.after hostOps2 (W4 m ρ c))) (Proc.devRef .tc main_v11) = _
  after_results
  rw [w4_v2]
  rfl

theorem e7_v13 (c : Dev nD) : W7 m ρ c (Proc.devRef .tc main_v13) = kHeadsT m c := by
  show StableHlo.after hostOps2_2 (StableHlo.after hostOps2_1 (StableHlo.after hostOps2 (W4 m ρ c))) (Proc.devRef .tc main_v13) = _
  after_results
  rw [w4_v7]
  rfl

theorem e7_v15 (c : Dev nD) : W7 m ρ c (Proc.devRef .tc main_v15) = vHeads m c := by
  show StableHlo.after hostOps2_2 (StableHlo.after hostOps2_1 (StableHlo.after hostOps2 (W4 m ρ c))) (Proc.devRef .tc main_v15) = _
  after_results
  rw [w4_v7]
  rfl

theorem e7_v20 (c : Dev nD) : W7 m ρ c (Proc.devRef .tc main_v20) = maskArr m c := by
  show StableHlo.after hostOps2_2 (StableHlo.after hostOps2_1 (StableHlo.after hostOps2 (W4 m ρ c))) (Proc.devRef .tc main_v20) = _
  after_results
  rw [w4_arg2]
  rfl

/-! ## The attention region's two arrays -/

theorem w8_v21_0 (c : Dev nD) : W8 m ρ c (Proc.devRef .tc main_v21_0) = Reg2.attnArr (qHeads m c) (kHeadsT m c) (maskArr m c) :=
  (W8_arr m ρ c 4).trans ((Reg2.final4 (V7 m ρ) c).trans (by
    show Reg2.attnArr (W7 m ρ c (Proc.devRef .tc main_v11)) (W7 m ρ c (Proc.devRef .tc main_v13)) (W7 m ρ c (Proc.devRef .tc main_v20)) = _
    rw [e7_v11, e7_v13, e7_v20]))

theorem w8_v21_1 (c : Dev nD) : W8 m ρ c (Proc.devRef .tc main_v21_1)
    = Reg2.blendArr (qHeads m c) (kHeadsT m c) (vHeads m c) (maskArr m c) :=
  (W8_arr m ρ c 5).trans ((Reg2.final5 (V7 m ρ) c).trans (by
    show Reg2.blendArr (W7 m ρ c (Proc.devRef .tc main_v11)) (W7 m ρ c (Proc.devRef .tc main_v13)) (W7 m ρ c (Proc.devRef .tc main_v15))
      (W7 m ρ c (Proc.devRef .tc main_v20)) = _
    rw [e7_v11, e7_v13, e7_v15, e7_v20]))

/-! ## The output layer (region 3) -/

/-- The blended values with the heads side by side again, one row per (sequence, position). -/
def merged (c : Dev nD) : S8192x512.Idx → EReal :=
  shapeCast S8192x512 (transpose S4x2048x8x64 [0, 2, 1, 3] (Reg2.blendArr (qHeads m c) (kHeadsT m c) (vHeads m c) (maskArr m c))
    transposes_S4x8x2048x64_S4x2048x8x64_0_2_1_3) shapeCasts_S4x2048x8x64_S8192x512

theorem e9_v23 (c : Dev nD) : W9 m ρ c (Proc.devRef .tc main_v23) = merged m c := by
  show StableHlo.after hostOps3 (W8 m ρ c) (Proc.devRef .tc main_v23) = _
  after_results
  rw [w8_v21_1]
  rfl

theorem e9_v24 (c : Dev nD) : W9 m ρ c (Proc.devRef .tc main_v24) = shapeCast S1x512 (m ((c : Thread nD τ).loc main_arg11)) shapeCasts_S512_S1x512 := by
  show StableHlo.after hostOps3 (W8 m ρ c) (Proc.devRef .tc main_v24) = _
  after_results
  rw [w8_arg11]
  rfl

theorem e9_arg10 (c : Dev nD) : W9 m ρ c (Proc.devRef .tc main_arg10) = m ((c : Thread nD τ).loc main_arg10) := by
  show StableHlo.after hostOps3 (W8 m ρ c) (Proc.devRef .tc main_arg10) = _
  after_results
  exact w8_arg10 m ρ c

/-- The output, one row per (sequence, position). -/
def outFlat (c : Dev nD) : S8192x512.Idx → EReal :=
  Reg3.rowsDense (merged m c) (m ((c : Thread nD τ).loc main_arg10)) (shapeCast S1x512 (m ((c : Thread nD τ).loc main_arg11)) shapeCasts_S512_S1x512)

theorem w10_v25 (c : Dev nD) : W10 m ρ c (Proc.devRef .tc main_v25) = outFlat m c :=
  (W10_arr m ρ c 3).trans ((Reg3.final (V9 m ρ) c).trans (by
    show Reg3.rowsDense (W9 m ρ c (Proc.devRef .tc main_v23)) (W9 m ρ c (Proc.devRef .tc main_arg10)) (W9 m ρ c (Proc.devRef .tc main_v24)) = _
    rw [e9_v23, e9_arg10, e9_v24]; rfl))

/-! ## The two results at the last boundary -/

theorem w11_v26 (c : Dev nD) : W11 m ρ c (Proc.devRef .tc main_v26)
    = shapeCast S4x2048x512 (outFlat m c) shapeCasts_S8192x512_S4x2048x512 := by
  show StableHlo.after hostOps4 (W10 m ρ c) (Proc.devRef .tc main_v26) = _
  after_results
  rw [w10_v25]
  rfl

theorem w11_v21_0 (c : Dev nD) : W11 m ρ c (Proc.devRef .tc main_v21_0)
    = Reg2.attnArr (qHeads m c) (kHeadsT m c) (maskArr m c) := by
  show StableHlo.after hostOps4 (W10 m ρ c) (Proc.devRef .tc main_v21_0) = _
  after_results
  rw [W10_of_ne m ρ c main_v21_0 (by decide)]
  show StableHlo.after hostOps3 (W8 m ρ c) (Proc.devRef .tc main_v21_0) = _
  after_results
  exact w8_v21_0 m ρ c

end Cert.KernelIdeal.Glue

end
-- ==== Proof.LibLeadFold.lean ====
/-
  General lemmas for kernels that fold the two leading axes of an [a, b, n] array into one of length m = a · b before a
  matrix product and unfold them afterwards, that take a maximum along the last axis of an array, and that repeat a
  vector of length n over an [a, b, n] array; each read at one index.

  * `shapeCast_abn_mn_apply`: an [a, b, n] array recast as [m, n] reads, at (p · b + q, k), the array at (p, q, k).
  * `shapeCast_mn_abn_apply`: an [m, n] array recast as [a, b, n] reads, at (p, q, k), the array at (p · b + q, k).
  * `shapeCast_abpq_mpq_apply`: an [a, b, p, q] array recast as [m, p, q] reads, at (u · b + v, i, k), the array at (u, v, i, k).
  * `shapeCast_mpq_abpq_apply`: an [m, p, q] array recast as [a, b, p, q] reads, at (u, v, i, k), the array at (u · b + v, i, k).
  * `lastMax3_apply`: at the exact (extended-real) instance, the maximum of an [a, g, n] array along its last axis is,
    at (p, gi), the fold of max from the accumulator's value over k of the array at (p, gi, k).
  * `hostLastMax4_apply`: the host's one-operand reduce with a maximum body along the last axis of an [a, b, c, n]
    array is, at (p, q, r), the fold of max from the initial value over k of the array at (p, q, r, k).
  * `shapeCast_n_11n_apply`: a vector of length n recast as [1, 1, n] reads, at (u, v, k), the vector at k.
  * `broadcastTo_11n_abn_apply`: a [1, 1, n] array repeated over [a, b, n] reads, at (p, q, k), the array at (0, 0, k).
-/
import Idealize.ShloMosaic.Lib.ValueIdx
import Idealize.ShloMosaic.Lib.Pipeline.Value
import Idealize.ShloMosaic.PureOps.Ideal.Laws

noncomputable section

open scoped BigOperators

namespace Cert.LeadFold

open Idealize.ShloMosaic Idealize.ShloMosaic.ValueIdx

variable {α : Type} {a b c g m n : ℕ}

/-- An [a, b, n] array recast as [m, n] (m = a · b): row p · b + q, column k holds the entry at (p, q, k), the two
    indices having one row-major position. -/
theorem shapeCast_abn_mn_apply (x : (⟨3, ![a, b, n]⟩ : Shape).Idx → α) (h : (⟨3, ![a, b, n]⟩ : Shape).ShapeCasts ⟨2, ![m, n]⟩)
    (r : Fin m) (k : Fin n) (p : Fin a) (q : Fin b) (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An [m, n] array recast as [a, b, n] (m = a · b): position (p, q, k) holds the entry at row p · b + q, column k. -/
theorem shapeCast_mn_abn_apply (x : (⟨2, ![m, n]⟩ : Shape).Idx → α) (h : (⟨2, ![m, n]⟩ : Shape).ShapeCasts ⟨3, ![a, b, n]⟩)
    (p : Fin a) (q : Fin b) (k : Fin n) (r : Fin m) (hr : r.val = p.val * b + q.val) :
    shapeCast ⟨3, ![a, b, n]⟩ x h (ix3 p q k) = x (ix2 r k) :=
  shapeCast_apply x h _ _ (by
    rw [Shape.rowMajor_val_two, Shape.rowMajor_val_three]
    show r.val * n + k.val = (p.val * b + q.val) * n + k.val
    rw [hr])

/-- An [a, b, p, q] array recast as [m, p, q] (m = a · b): position (u · b + v, i, k) holds the entry at (u, v, i, k). -/
theorem shapeCast_abpq_mpq_apply {p q : ℕ} (x : (⟨4, ![a, b, p, q]⟩ : Shape).Idx → α)
    (h : (⟨4, ![a, b, p, q]⟩ : Shape).ShapeCasts ⟨3, ![m, p, q]⟩)
    (r : Fin m) (i : Fin p) (k : Fin q) (u : Fin a) (v : Fin b) (hr : r.val = u.val * b + v.val) :
    shapeCast ⟨3, ![m, p, q]⟩ x h (ix3 r i k) = x (ix4 u v i k) :=
  shapeCast_apply x h _ _ (by
    rw [Shape.rowMajor_val_four, Shape.rowMajor_val_three]
    show ((u.val * b + v.val) * p + i.val) * q + k.val = (r.val * p + i.val) * q + k.val
    rw [hr])

/-- An [m, p, q] array recast as [a, b, p, q] (m = a · b): position (u, v, i, k) holds the entry at (u · b + v, i, k). -/
theorem shapeCast_mpq_abpq_apply {p q : ℕ} (x : (⟨3, ![m, p, q]⟩ : Shape).Idx → α)
    (h : (⟨3, ![m, p, q]⟩ : Shape).ShapeCasts ⟨4, ![a, b, p, q]⟩)
    (u : Fin a) (v : Fin b) (i : Fin p) (k : Fin q) (r : Fin m) (hr : r.val = u.val * b + v.val) :
    shapeCast ⟨4, ![a, b, p, q]⟩ x h (ix4 u v i k) = x (ix3 r i k) :=
  shapeCast_apply x h _ _ (by
    rw [Shape.rowMajor_val_three, Shape.rowMajor_val_four]
    show (r.val * p + i.val) * q + k.val = ((u.val * b + v.val) * p + i.val) * q + k.val
    rw [hr])

/-- The maximum of an [a, g, n] array along its last axis, at (p, gi): the fold of max, from the accumulator's value,
    over k of the array at (p, gi, k). -/
theorem lastMax3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.maximumf.neutral φ hφ)
    (p : Fin a) (gi : Fin g) :
    multiReduction .maximumf [2] ⟨2, ![a, g]⟩ src acc h hφ hacc (ix2 p gi)
      = (Finset.univ : Finset (Fin n)).fold max (FloatOps.ofBits φ acc) (fun k => src (ix3 p gi k)) := by
  refine (Ideal.multiReduction_maximumf_single src acc h hφ hacc (ix2 p gi)).trans ?_
  refine congrArg (fun f : Fin n → Ideal φ => (Finset.univ : Finset (Fin n)).fold max (FloatOps.ofBits φ acc) f)
    (funext fun k => congrArg src (funext fun d => Fin.ext ?_))
  rw [h.lift_val]
  match d with
  | ⟨0, _⟩ => rfl
  | ⟨1, _⟩ => rfl
  | ⟨2, _⟩ => rfl

/-- The host's reduce with a maximum body along the last axis of an [a, b, c, n] array, at (p, q, r): the fold of max,
    from the initial value, over k of the array at (p, q, r, k). -/
theorem hostLastMax4_apply {φ : FTy} {u : Shape} (x : FVec Ideal ⟨4, ![a, b, c, n]⟩ φ) (init : FVec Ideal u φ)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl
  | ⟨3, _⟩ => rfl

/-- A vector of length n recast as [1, 1, n] reads, at (u, v, k), the vector at k, whatever the unit coordinates. -/
theorem shapeCast_n_11n_apply (x : (⟨1, ![n]⟩ : Shape).Idx → α) (h : (⟨1, ![n]⟩ : Shape).ShapeCasts ⟨3, ![1, 1, n]⟩)
    (u v : Fin 1) (k : Fin n) : shapeCast ⟨3, ![1, 1, n]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * n + k.val
    simp [hu, hv])

/-- A [1, 1, n] array repeated over [a, b, n] reads, at (p, q, k), the array at (0, 0, k). -/
theorem broadcastTo_11n_abn_apply (x : (⟨3, ![1, 1, n]⟩ : Shape).Idx → α) (h : (⟨3, ![1, 1, n]⟩ : Shape).Broadcasts ⟨3, ![a, b, n]⟩)
    (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LeadFold

end
-- ==== Proof.KValue.lean ====
/-
  The attention program's arrays read at coordinates: each is a stage of the specification.

  Row 2048·n + s of a flat [8192, ·] array is position s of sequence n, and column 64·h + d is entry d of head h; the
  stacked key/value projection holds the keys in columns 0–511 and the values in columns 512–1023. With these
  identifications the projections are `dense`, the mask is `maskOf`, the attention region's arrays are `weights` and
  `blend`, and the output region's array, reshaped, is `output`.
-/
import proofs.«133988_j46273977647279_2_alg».proof.Proof.KGlue
import proofs.«133988_j46273977647279_2_alg».proof.Proof.Spec
import proofs.«133988_j46273977647279_2_alg».proof.Proof.LibLeadFold
import Idealize.ShloMosaic.Lib.ValueLayout
import Idealize.ShloMosaic.Lib.Pipeline.Value
import Idealize.ShloMosaic.Lib.ValueIdx

set_option maxRecDepth 16384

noncomputable section

open scoped BigOperators

namespace Cert.KernelIdeal.Entries

open Cert.KernelIdeal Cert.KernelIdeal.Gen Cert.KernelIdeal.Glue Cert.Attention
open Idealize.ShloMosaic Idealize.ShloMosaic.TcCoe Idealize.ShloMosaic.ValueIdx Idealize.SL.Sem

/-! ## Arrays by coordinates -/

@[reducible] def c3 (x : S4x2048x512.Idx → EReal) : Fin 4 → Fin 2048 → Fin 512 → EReal := fun n s e => x (ix3 n s e)
@[reducible] def cM (x : S4x2048.Idx → EReal) : Fin 4 → Fin 2048 → EReal := fun n k => x (ix2 n k)
@[reducible] def cW (x : S512x512.Idx → EReal) : Fin 512 → Fin 512 → EReal := fun j e => x (ix2 j e)
@[reducible] def cB (x : S512.Idx → EReal) : Fin 512 → EReal := fun j => x (ix1 j)

/-- Position s of sequence n as a row of a flat array. -/
def row (n : Fin 4) (s : Fin 2048) : Fin 8192 := ⟨n.val * 2048 + s.val, by have := n.isLt; have := s.isLt; omega⟩
/-- A key column of the stacked projection. -/
def colK (j : Fin 512) : Fin 1024 := ⟨j.val, by have := j.isLt; omega⟩
/-- A value column of the stacked projection. -/
def colV (j : Fin 512) : Fin 1024 := ⟨512 + j.val, by have := j.isLt; omega⟩

theorem row_val (n : Fin 4) (s : Fin 2048) : (row n s).val = n.val * 2048 + s.val := rfl
theorem colK_val (j : Fin 512) : (colK j).val = j.val := rfl
theorem colV_val (j : Fin 512) : (colV j).val = 512 + j.val := rfl

variable (m : (ℓ : Loc nD τ sig) → Buf (Elt Ideal) ℓ) (ρ : Dev nD → PrngReg)

/-! ## The projections -/

theorem q_at (c : Dev nD) (n : Fin 4) (s : Fin 2048) (j : Fin 512) :
    qFlat m c (ix2 (row n s) j) = (dense (c3 (m ((c : Thread nD τ).loc main_arg1))) (cW (m ((c : Thread nD τ).loc main_arg4))) (cB (m ((c : Thread nD τ).loc main_arg5)))) n s j := by
  unfold qFlat Reg0.rowsDense dense
  refine congrArg₂ (· + ·) (Finset.sum_congr rfl fun k _ => congrArg₂ (· * ·) ?_ rfl) ?_
  · exact Cert.LeadFold.shapeCast_abn_mn_apply _ _ (row n s) k n s (row_val n s)
  · exact shapeCast_a_1a_apply _ _ 0 j

theorem k_at (c : Dev nD) (n : Fin 4) (s : Fin 2048) (j : Fin 512) :
    kvFlat m c (ix2 (row n s) (colK j)) = (dense (c3 (m ((c : Thread nD τ).loc main_arg0))) (cW (m ((c : Thread nD τ).loc main_arg6))) (cB (m ((c : Thread nD τ).loc main_arg7)))) n s j := by
  unfold kvFlat Reg1.rowsDense dense
  refine congrArg₂ (· + ·) (Finset.sum_congr rfl fun k _ => congrArg₂ (· * ·)
    (Cert.LeadFold.shapeCast_abn_mn_apply _ _ (row n s) k n s (row_val n s)) ?_) ?_
  · exact concatenate_pair_apply_left (s₁ := S512x512) (s₂ := S512x512) (0 : Fin 2) _ _ _ (ix2 (colK j) k) rfl (ix2 j k)
      (fun b => by match b with | ⟨0, _⟩ => rfl | ⟨1, _⟩ => rfl)
  · exact (shapeCast_a_1a_apply _ _ 0 (colK j)).trans (concatenate_pair_apply_left (s₁ := S512) (s₂ := S512) (0 : Fin 1) _ _ _ (ix1 (colK j)) rfl (ix1 j)
      (fun b => by match b with | ⟨0, _⟩ => rfl))

theorem v_at (c : Dev nD) (n : Fin 4) (s : Fin 2048) (j : Fin 512) :
    kvFlat m c (ix2 (row n s) (colV j)) = (dense (c3 (m ((c : Thread nD τ).loc main_arg0))) (cW (m ((c : Thread nD τ).loc main_arg8))) (cB (m ((c : Thread nD τ).loc main_arg9)))) n s j := by
  unfold kvFlat Reg1.rowsDense dense
  refine congrArg₂ (· + ·) (Finset.sum_congr rfl fun k _ => congrArg₂ (· * ·)
    (Cert.LeadFold.shapeCast_abn_mn_apply _ _ (row n s) k n s (row_val n s)) ?_) ?_
  · exact concatenate_pair_apply_right (s₁ := S512x512) (s₂ := S512x512) (0 : Fin 2) _ _ _ (ix2 (colV j) k) rfl rfl (ix2 j k)
      (fun b hb => by match b with | ⟨0, _⟩ => exact absurd rfl hb | ⟨1, _⟩ => rfl)
      (by show j.val + 512 = 512 + j.val; omega)
  · exact (shapeCast_a_1a_apply _ _ 0 (colV j)).trans (concatenate_pair_apply_right (s₁ := S512) (s₂ := S512) (0 : Fin 1) _ _ _ (ix1 (colV j)) rfl rfl (ix1 j)
      (fun b hb => by match b with | ⟨0, _⟩ => exact absurd rfl hb)
      (by show j.val + 512 = 512 + j.val; omega))

/-! ## The attention region's inputs -/

theorem qHeads_at (c : Dev nD) (n : Fin 4) (h : Fin 8) (q : Fin 2048) (d : Fin 64) :
    qHeads m c (ix4 n h q d) = (dense (c3 (m ((c : Thread nD τ).loc main_arg1))) (cW (m ((c : Thread nD τ).loc main_arg4))) (cB (m ((c : Thread nD τ).loc main_arg5)))) n q (hd h d) := by
  unfold qHeads
  refine (transpose_apply [0, 2, 1, 3] _ _ (ix4 n h q d) (ix4 n q h d)
    (fun b => by match b with | ⟨0, _⟩ => rfl | ⟨1, _⟩ => rfl | ⟨2, _⟩ => rfl | ⟨3, _⟩ => rfl)).trans ?_
  refine (shapeCast_apply _ _ (ix4 n q h d) (ix2 (row n q) (hd h d)) (by
    rw [Shape.rowMajor_val_two, Shape.rowMajor_val_four]
    show (n.val * 2048 + q.val) * 512 + (64 * h.val + d.val) = ((n.val * 2048 + q.val) * 8 + h.val) * 64 + d.val
    omega)).trans ?_
  exact q_at m c n q (hd h d)

theorem kHeadsT_at (c : Dev nD) (n : Fin 4) (h : Fin 8) (d : Fin 64) (k : Fin 2048) :
    kHeadsT m c (ix4 n h d k) = (dense (c3 (m ((c : Thread nD τ).loc main_arg0))) (cW (m ((c : Thread nD τ).loc main_arg6))) (cB (m ((c : Thread nD τ).loc main_arg7)))) n k (hd h d) := by
  unfold kHeadsT
  refine (transpose_apply [0, 2, 3, 1] _ _ (ix4 n h d k) (ix4 n k h d)
    (fun b => by match b with | ⟨0, _⟩ => rfl | ⟨1, _⟩ => rfl | ⟨2, _⟩ => rfl | ⟨3, _⟩ => rfl)).trans ?_
  refine (shapeCast_apply _ _ (ix4 n k h d) (ix2 (row n k) (hd h d)) (by
    rw [Shape.rowMajor_val_two, Shape.rowMajor_val_four]
    show (n.val * 2048 + k.val) * 512 + (64 * h.val + d.val) = ((n.val * 2048 + k.val) * 8 + h.val) * 64 + d.val
    omega)).trans ?_
  refine (extractStridedSlice_apply ![0, 0] _ _ (ix2 (row n k) (hd h d)) (ix2 (row n k) (colK (hd h d)))
    (fun a => by match a with
      | ⟨0, _⟩ => show (row n k).val = 0 + (row n k).val; omega
      | ⟨1, _⟩ => show (hd h d).val = 0 + (hd h d).val; omega)).trans ?_
  exact k_at m c n k (hd h d)

theorem vHeads_at (c : Dev nD) (n : Fin 4) (h : Fin 8) (k : Fin 2048) (d : Fin 64) :
    vHeads m c (ix4 n h k d) = (dense (c3 (m ((c : Thread nD τ).loc main_arg0))) (cW (m ((c : Thread nD τ).loc main_arg8))) (cB (m ((c : Thread nD τ).loc main_arg9)))) n k (hd h d) := by
  unfold vHeads
  refine (transpose_apply [0, 2, 1, 3] _ _ (ix4 n h k d) (ix4 n k h d)
    (fun b => by match b with | ⟨0, _⟩ => rfl | ⟨1, _⟩ => rfl | ⟨2, _⟩ => rfl | ⟨3, _⟩ => rfl)).trans ?_
  refine (shapeCast_apply _ _ (ix4 n k h d) (ix2 (row n k) (hd h d)) (by
    rw [Shape.rowMajor_val_two, Shape.rowMajor_val_four]
    show (n.val * 2048 + k.val) * 512 + (64 * h.val + d.val) = ((n.val * 2048 + k.val) * 8 + h.val) * 64 + d.val
    omega)).trans ?_
  refine (extractStridedSlice_apply ![0, 512] _ _ (ix2 (row n k) (hd h d)) (ix2 (row n k) (colV (hd h d)))
    (fun a => by match a with
      | ⟨0, _⟩ => show (row n k).val = 0 + (row n k).val; omega
      | ⟨1, _⟩ => show 512 + (hd h d).val = 512 + (hd h d).val; rfl)).trans ?_
  exact v_at m c n k (hd h d)

theorem mask_at (c : Dev nD) (n : Fin 4) (k : Fin 2048) :
    maskArr m c (ix3 n (0 : Fin 1) k) = (maskOf (cM (m ((c : Thread nD τ).loc main_arg2)))) n k := by
  unfold maskArr
  refine (broadcastInDim_apply ![0, 2] _ _ (ix3 n (0 : Fin 1) k) (ix2 n k) (fun a => by
    match a with
    | ⟨0, _⟩ => show n.val = if (4 : ℕ) = 1 then 0 else n.val; rw [if_neg (by decide)]
    | ⟨1, _⟩ => show k.val = if (2048 : ℕ) = 1 then 0 else k.val; rw [if_neg (by decide)])).trans ?_
  rfl

/-! ## The attention region's arrays -/

theorem headScore_eq (c : Dev nD) :
    Reg2.headScore (qHeads m c) (kHeadsT m c) (maskArr m c) = scores (dense (c3 (m ((c : Thread nD τ).loc main_arg1))) (cW (m ((c : Thread nD τ).loc main_arg4))) (cB (m ((c : Thread nD τ).loc main_arg5)))) (dense (c3 (m ((c : Thread nD τ).loc main_arg0))) (cW (m ((c : Thread nD τ).loc main_arg6))) (cB (m ((c : Thread nD τ).loc main_arg7)))) (maskOf (cM (m ((c : Thread nD τ).loc main_arg2)))) := by
  funext n h q k
  unfold Reg2.headScore scores
  exact congrArg₂ (· + ·) (Finset.sum_congr rfl fun d _ => congrArg₂ (· * ·) (qHeads_at m c n h q d) (kHeadsT_at m c n h d k))
    (mask_at m c n k)

theorem attn_at (c : Dev nD) (n : Fin 4) (h : Fin 8) (q k : Fin 2048) :
    Reg2.attnArr (qHeads m c) (kHeadsT m c) (maskArr m c) (ix4 n h q k) = (weights (c3 (m ((c : Thread nD τ).loc main_arg0))) (c3 (m ((c : Thread nD τ).loc main_arg1))) (cM (m ((c : Thread nD τ).loc main_arg2))) (cW (m ((c : Thread nD τ).loc main_arg4))) (cB (m ((c : Thread nD τ).loc main_arg5))) (cW (m ((c : Thread nD τ).loc main_arg6))) (cB (m ((c : Thread nD τ).loc main_arg7)))) n h q k := by
  unfold Reg2.attnArr weights
  rw [headScore_eq m c]

theorem blend_at (c : Dev nD) (n : Fin 4) (h : Fin 8) (q : Fin 2048) (d : Fin 64) :
    Reg2.blendArr (qHeads m c) (kHeadsT m c) (vHeads m c) (maskArr m c) (ix4 n h q d) = blend (weights (c3 (m ((c : Thread nD τ).loc main_arg0))) (c3 (m ((c : Thread nD τ).loc main_arg1))) (cM (m ((c : Thread nD τ).loc main_arg2))) (cW (m ((c : Thread nD τ).loc main_arg4))) (cB (m ((c : Thread nD τ).loc main_arg5))) (cW (m ((c : Thread nD τ).loc main_arg6))) (cB (m ((c : Thread nD τ).loc main_arg7)))) (dense (c3 (m ((c : Thread nD τ).loc main_arg0))) (cW (m ((c : Thread nD τ).loc main_arg8))) (cB (m ((c : Thread nD τ).loc main_arg9)))) n h q d := by
  unfold Reg2.blendArr blend weights
  rw [headScore_eq m c]
  exact Finset.sum_congr rfl fun k _ => congrArg₂ (· * ·) rfl (vHeads_at m c n h k d)

/-! ## The output layer -/

theorem merged_at (c : Dev nD) (n : Fin 4) (s : Fin 2048) (k : Fin 512) :
    merged m c (ix2 (row n s) k) = blend (weights (c3 (m ((c : Thread nD τ).loc main_arg0))) (c3 (m ((c : Thread nD τ).loc main_arg1))) (cM (m ((c : Thread nD τ).loc main_arg2))) (cW (m ((c : Thread nD τ).loc main_arg4))) (cB (m ((c : Thread nD τ).loc main_arg5))) (cW (m ((c : Thread nD τ).loc main_arg6))) (cB (m ((c : Thread nD τ).loc main_arg7)))) (dense (c3 (m ((c : Thread nD τ).loc main_arg0))) (cW (m ((c : Thread nD τ).loc main_arg8))) (cB (m ((c : Thread nD τ).loc main_arg9)))) n (hOf k) s (dOf k) := by
  unfold merged
  refine (shapeCast_apply _ _ (ix2 (row n s) k) (ix4 n s (hOf k) (dOf k)) (by
    rw [Shape.rowMajor_val_four, Shape.rowMajor_val_two]
    show ((n.val * 2048 + s.val) * 8 + k.val / 64) * 64 + k.val % 64 = (n.val * 2048 + s.val) * 512 + k.val
    omega)).trans ?_
  refine (transpose_apply [0, 2, 1, 3] _ _ (ix4 n s (hOf k) (dOf k)) (ix4 n (hOf k) s (dOf k))
    (fun b => by match b with | ⟨0, _⟩ => rfl | ⟨1, _⟩ => rfl | ⟨2, _⟩ => rfl | ⟨3, _⟩ => rfl)).trans ?_
  exact blend_at m c n (hOf k) s (dOf k)

theorem out_at (c : Dev nD) (n : Fin 4) (s : Fin 2048) (e : Fin 512) :
    outFlat m c (ix2 (row n s) e) = (output (c3 (m ((c : Thread nD τ).loc main_arg0))) (c3 (m ((c : Thread nD τ).loc main_arg1))) (cM (m ((c : Thread nD τ).loc main_arg2))) (cW (m ((c : Thread nD τ).loc main_arg4))) (cB (m ((c : Thread nD τ).loc main_arg5))) (cW (m ((c : Thread nD τ).loc main_arg6))) (cB (m ((c : Thread nD τ).loc main_arg7))) (cW (m ((c : Thread nD τ).loc main_arg8))) (cB (m ((c : Thread nD τ).loc main_arg9))) (cW (m ((c : Thread nD τ).loc main_arg10))) (cB (m ((c : Thread nD τ).loc main_arg11)))) n s e := by
  unfold outFlat Reg3.rowsDense output outp
  exact congrArg₂ (· + ·) (Finset.sum_congr rfl fun k _ => congrArg₂ (· * ·) (merged_at m c n s k) rfl)
    (shapeCast_a_1a_apply _ _ 0 e)

/-- The output result, reshaped to [4, 2048, 512], at (n, s, e). -/
theorem result_out_at (c : Dev nD) (n : Fin 4) (s : Fin 2048) (e : Fin 512) :
    shapeCast S4x2048x512 (outFlat m c) shapeCasts_S8192x512_S4x2048x512 (ix3 n s e) = (output (c3 (m ((c : Thread nD τ).loc main_arg0))) (c3 (m ((c : Thread nD τ).loc main_arg1))) (cM (m ((c : Thread nD τ).loc main_arg2))) (cW (m ((c : Thread nD τ).loc main_arg4))) (cB (m ((c : Thread nD τ).loc main_arg5))) (cW (m ((c : Thread nD τ).loc main_arg6))) (cB (m ((c : Thread nD τ).loc main_arg7))) (cW (m ((c : Thread nD τ).loc main_arg8))) (cB (m ((c : Thread nD τ).loc main_arg9))) (cW (m ((c : Thread nD τ).loc main_arg10))) (cB (m ((c : Thread nD τ).loc main_arg11)))) n s e :=
  (Cert.LeadFold.shapeCast_mn_abn_apply _ _ n s e (row n s) (row_val n s)).trans (out_at m c n s e)

end Cert.KernelIdeal.Entries

end
-- ==== Proof.RefSide.lean ====
/-
  The reference computation read entry by entry: each intermediate array of the reference, read at coordinates,
  is the corresponding stage of the specification applied to the argument arrays read at coordinates.

  The three projections are dense layers whose model axis is split into heads (position 64·h + d is entry d of
  head h); the mask, the scores, the row maximum, the softmax and the blended values follow, and the output layer
  reads the heads laid side by side again (position k belongs to head k / 64 at place k % 64).
-/
import proofs.«133988_j46273977647279_2_alg».proof.Proof.Gen.ReferenceIdeal.Read
import proofs.«133988_j46273977647279_2_alg».proof.Proof.Spec
import proofs.«133988_j46273977647279_2_alg».proof.Proof.LibLeadFold
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

/-! ### The three projections -/

/-- Reading the reshaped and transposed projection at (n, h, s, d) reads the dense layer's result at (n, s, 64·h + d). -/
theorem idx_split (n : Fin 4) (h : Fin 8) (s : Fin 2048) (d : Fin 64) :
    idx_main_v4 (idx_main_v5 (ix4 n h s d)) = ix3 n s (hd h d) := by
  funext a
  have hn := n.isLt; have hh := h.isLt; have hs := s.isLt; have hd' := d.isLt
  match a with
  | ⟨0, _⟩ => exact Fin.ext (show (((n.val * 2048 + s.val) * 8 + h.val) * 64 + d.val) / 1048576 = n.val by omega)
  | ⟨1, _⟩ => exact Fin.ext (show (((n.val * 2048 + s.val) * 8 + h.val) * 64 + d.val) / 512 % 2048 = s.val by omega)
  | ⟨2, _⟩ => exact Fin.ext (show (((n.val * 2048 + s.val) * 8 + h.val) * 64 + d.val) % 512 = 64 * h.val + d.val by omega)

theorem lidx_dense (n : Fin 4) (s : Fin 2048) (j k : Fin 512) : lidx_main_v0 (ix3 n s j) k = ix3 n s k := by
  funext a
  match a with
  | ⟨0, _⟩ => rfl
  | ⟨1, _⟩ => rfl
  | ⟨2, _⟩ => rfl

theorem ridx_dense (n : Fin 4) (s : Fin 2048) (j k : Fin 512) : ridx_main_v0 (ix3 n s j) k = ix2 j k := by
  funext a
  match a with
  | ⟨0, _⟩ => rfl
  | ⟨1, _⟩ => rfl

theorem idx_bias (n : Fin 4) (s : Fin 2048) (j : Fin 512) : idx_main_v1 (idx_main_v2 (ix3 n s j)) = ix1 j := by
  funext a
  match a with
  | ⟨0, _⟩ => rfl

/-- The dense layer before the reshape, at (n, s, j). -/
theorem dense_eq (x : (⟨S4x2048x512, .f32⟩ : BufTy).Contents (Elt Ideal)) (w : (⟨S512x512, .f32⟩ : BufTy).Contents (Elt Ideal))
    (b : (⟨S512, .f32⟩ : BufTy).Contents (Elt Ideal)) (n : Fin 4) (s : Fin 2048) (j : Fin 512) :
    val_main_v3 (F := Ideal) x w b (ix3 n s j)
      = dense (fun n s e => x (ix3 n s e)) (fun j e => w (ix2 j e)) (fun j => b (ix1 j)) n s j := by
  rw [val_main_v3_apply, val_main_v0_apply, val_main_v2_apply, val_main_v1_apply, idx_bias]
  refine congrArg (· + b (ix1 j)) (Finset.sum_congr rfl fun k _ => ?_)
  rw [lidx_dense, ridx_dense]

/-- The query projection split into heads, at (n, h, s, d). -/
theorem proj_q (x : (⟨S4x2048x512, .f32⟩ : BufTy).Contents (Elt Ideal)) (w : (⟨S512x512, .f32⟩ : BufTy).Contents (Elt Ideal))
    (b : (⟨S512, .f32⟩ : BufTy).Contents (Elt Ideal)) (n : Fin 4) (h : Fin 8) (s : Fin 2048) (d : Fin 64) :
    val_main_v5 (F := Ideal) x w b (ix4 n h s d)
      = dense (fun n s e => x (ix3 n s e)) (fun j e => w (ix2 j e)) (fun j => b (ix1 j)) n s (hd h d) := by
  rw [val_main_v5_apply, val_main_v4_apply, idx_split, dense_eq]

/-- The key projection split into heads: the same layer on the other argument arrays. -/
theorem proj_k (x : (⟨S4x2048x512, .f32⟩ : BufTy).Contents (Elt Ideal)) (w : (⟨S512x512, .f32⟩ : BufTy).Contents (Elt Ideal))
    (b : (⟨S512, .f32⟩ : BufTy).Contents (Elt Ideal)) (n : Fin 4) (h : Fin 8) (s : Fin 2048) (d : Fin 64) :
    val_main_v11 (F := Ideal) x w b (ix4 n h s d)
      = dense (fun n s e => x (ix3 n s e)) (fun j e => w (ix2 j e)) (fun j => b (ix1 j)) n s (hd h d) :=
  proj_q x w b n h s d

/-- The value projection split into heads: the same layer again. -/
theorem proj_v (x : (⟨S4x2048x512, .f32⟩ : BufTy).Contents (Elt Ideal)) (w : (⟨S512x512, .f32⟩ : BufTy).Contents (Elt Ideal))
    (b : (⟨S512, .f32⟩ : BufTy).Contents (Elt Ideal)) (n : Fin 4) (h : Fin 8) (s : Fin 2048) (d : Fin 64) :
    val_main_v17 (F := Ideal) x w b (ix4 n h s d)
      = dense (fun n s e => x (ix3 n s e)) (fun j e => w (ix2 j e)) (fun j => b (ix1 j)) n s (hd h d) :=
  proj_q x w b n h s d

/-! ### The mask and the scores -/

theorem idx_mask (n : Fin 4) (h : Fin 8) (q k : Fin 2048) :
    idx_main_v19 (idx_main_v24 (ix4 n h q k)) = ix2 n k := by
  funext a
  match a with
  | ⟨0, _⟩ => rfl
  | ⟨1, _⟩ => rfl

/-- The broadcast additive mask at (n, h, q, k) depends on (n, k) only. -/
theorem mask_eq (x2 : (⟨S4x2048, .f32⟩ : BufTy).Contents (Elt Ideal)) (n : Fin 4) (h : Fin 8) (q k : Fin 2048) :
    val_main_v24 (F := Ideal) x2 (ix4 n h q k) = maskOf (fun n k => x2 (ix2 n k)) n k := by
  rw [val_main_v24_apply, val_main_v23_apply, val_main_v22_apply, val_main_v21_apply, val_main_v19_apply, idx_mask,
    val_main_v20_apply, val_main_call0_v0_apply, val_main_call0_v1_apply]
  rfl

theorem lidx_scores (n : Fin 4) (h : Fin 8) (q k : Fin 2048) (d : Fin 64) :
    lidx_main_v18 (ix4 n h q k) d = ix4 n h q d := by
  funext a
  match a with
  | ⟨0, _⟩ => rfl
  | ⟨1, _⟩ => rfl
  | ⟨2, _⟩ => rfl
  | ⟨3, _⟩ => rfl

theorem ridx_scores (n : Fin 4) (h : Fin 8) (q k : Fin 2048) (d : Fin 64) :
    ridx_main_v18 (ix4 n h q k) d = ix4 n h k d := by
  funext a
  match a with
  | ⟨0, _⟩ => rfl
  | ⟨1, _⟩ => rfl
  | ⟨2, _⟩ => rfl
  | ⟨3, _⟩ => rfl

/-- The masked scores at (n, h, q, k). -/
theorem scores_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (n : Fin 4) (h : Fin 8) (q k : Fin 2048) :
    val_main_v25 (F := Ideal) x0 x1 x2 x4 x5 x6 x7 (ix4 n h q k)
      = scores (dense (fun n s e => x1 (ix3 n s e)) (fun j e => x4 (ix2 j e)) (fun j => x5 (ix1 j)))
          (dense (fun n s e => x0 (ix3 n s e)) (fun j e => x6 (ix2 j e)) (fun j => x7 (ix1 j)))
          (maskOf (fun n k => x2 (ix2 n k))) n h q k := by
  rw [val_main_v25_apply, val_main_v18_apply, mask_eq]
  refine congrArg (· + maskOf (fun n k => x2 (ix2 n k)) n k) (Finset.sum_congr rfl fun d _ => ?_)
  rw [lidx_scores, ridx_scores, proj_q, proj_k]

/-! ### The softmax along the key axis -/

theorem idx_keep (n : Fin 4) (h : Fin 8) (q k : Fin 2048) :
    idx_main_v29 (idx_main_v30 (ix4 n h q k)) = ix3 n h q := by
  funext a
  match a with
  | ⟨0, _⟩ => rfl
  | ⟨1, _⟩ => rfl
  | ⟨2, _⟩ => rfl

theorem idx_keep_sum (n : Fin 4) (h : Fin 8) (q k : Fin 2048) :
    idx_main_v34 (idx_main_v35 (ix4 n h q k)) = ix3 n h q := by
  funext a
  match a with
  | ⟨0, _⟩ => rfl
  | ⟨1, _⟩ => rfl
  | ⟨2, _⟩ => rfl

theorem idx_row (n : Fin 4) (h : Fin 8) (q k : Fin 2048) : idx_main_v33 (ix3 n h q) k = ix4 n h q k := by
  funext a
  match a with
  | ⟨0, _⟩ => rfl
  | ⟨1, _⟩ => rfl
  | ⟨2, _⟩ => rfl
  | ⟨3, _⟩ => rfl

/-- The row maximum at (n, h, q): the maximum of the starting value with a fold of max started at that same value is
    the fold. -/
theorem rowMax_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (n : Fin 4) (h : Fin 8) (q : Fin 2048) :
    val_main_v28 (F := Ideal) x0 x1 x2 x4 x5 x6 x7 (ix3 n h q)
      = rowMax (scores (dense (fun n s e => x1 (ix3 n s e)) (fun j e => x4 (ix2 j e)) (fun j => x5 (ix1 j)))
          (dense (fun n s e => x0 (ix3 n s e)) (fun j e => x6 (ix2 j e)) (fun j => x7 (ix1 j)))
          (maskOf (fun n k => x2 (ix2 n k)))) n h q := by
  have hfold : val_main_v26 (F := Ideal) x0 x1 x2 x4 x5 x6 x7 (ix3 n h q)
      = (Finset.univ : Finset (Fin 2048)).fold max (Ideal.ofBits .f32 0xFF800000#32)
          (fun k => val_main_v25 (F := Ideal) x0 x1 x2 x4 x5 x6 x7 (ix4 n h q k)) :=
    Cert.LeadFold.hostLastMax4_apply (val_main_v25 (F := Ideal) x0 x1 x2 x4 x5 x6 x7) (val_main_cst_2 (F := Ideal))
      reducesTo_S4x8x2048x2048_S4x8x2048_d3 (by decide) h_S_ n h q
  rw [val_main_v28_apply, val_main_v27_apply, val_main_cst_3_apply, hfold]
  have hfun : (fun k => val_main_v25 (F := Ideal) x0 x1 x2 x4 x5 x6 x7 (ix4 n h q k))
      = fun k => scores (dense (fun n s e => x1 (ix3 n s e)) (fun j e => x4 (ix2 j e)) (fun j => x5 (ix1 j)))
          (dense (fun n s e => x0 (ix3 n s e)) (fun j e => x6 (ix2 j e)) (fun j => x7 (ix1 j)))
          (maskOf (fun n k => x2 (ix2 n k))) n h q k := funext fun k => scores_eq x0 x1 x2 x4 x5 x6 x7 n h q k
  rw [hfun]
  exact max_eq_right ((Finset.le_fold_max _).mpr (Or.inl le_rfl))

/-- The exponential of a score less its row maximum, at (n, h, q, k). -/
theorem exps_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (n : Fin 4) (h : Fin 8) (q k : Fin 2048) :
    val_main_v32 (F := Ideal) x0 x1 x2 x4 x5 x6 x7 (ix4 n h q k)
      = Ideal.exp (scores (dense (fun n s e => x1 (ix3 n s e)) (fun j e => x4 (ix2 j e)) (fun j => x5 (ix1 j)))
            (dense (fun n s e => x0 (ix3 n s e)) (fun j e => x6 (ix2 j e)) (fun j => x7 (ix1 j)))
            (maskOf (fun n k => x2 (ix2 n k))) n h q k
          - rowMax (scores (dense (fun n s e => x1 (ix3 n s e)) (fun j e => x4 (ix2 j e)) (fun j => x5 (ix1 j)))
            (dense (fun n s e => x0 (ix3 n s e)) (fun j e => x6 (ix2 j e)) (fun j => x7 (ix1 j)))
            (maskOf (fun n k => x2 (ix2 n k)))) n h q) := by
  rw [val_main_v32_apply, val_main_v31_apply, val_main_v30_apply, val_main_v29_apply, idx_keep, scores_eq, rowMax_eq]
  rfl

/-- The attention weights at (n, h, q, k). -/
theorem weights_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (n : Fin 4) (h : Fin 8) (q k : Fin 2048) :
    val_main_v36 (F := Ideal) x0 x1 x2 x4 x5 x6 x7 (ix4 n h q k)
      = weights (fun n s e => x0 (ix3 n s e)) (fun n s e => x1 (ix3 n s e)) (fun n k => x2 (ix2 n k))
          (fun j e => x4 (ix2 j e)) (fun j => x5 (ix1 j)) (fun j e => x6 (ix2 j e)) (fun j => x7 (ix1 j)) n h q k := by
  rw [val_main_v36_apply, val_main_v35_apply, val_main_v34_apply, idx_keep_sum, val_main_v33_apply, val_main_cst_4_apply, exps_eq]
  unfold weights softmax
  show Ideal.div _ (Ideal.ofBits .f32 0x00000000#32 + _) = _
  rw [Ideal.ofBits_zero_f32, zero_add]
  refine congrArg (Ideal.div _) (Finset.sum_congr rfl fun k' _ => ?_)
  rw [idx_row, exps_eq]

/-! ### The blended values and the output layer -/

theorem lidx_blend (n : Fin 4) (h : Fin 8) (q : Fin 2048) (d : Fin 64) (k : Fin 2048) :
    lidx_main_v37 (ix4 n h q d) k = ix4 n h q k := by
  funext a
  match a with
  | ⟨0, _⟩ => rfl
  | ⟨1, _⟩ => rfl
  | ⟨2, _⟩ => rfl
  | ⟨3, _⟩ => rfl

theorem ridx_blend (n : Fin 4) (h : Fin 8) (q : Fin 2048) (d : Fin 64) (k : Fin 2048) :
    ridx_main_v37 (ix4 n h q d) k = ix4 n h k d := by
  funext a
  match a with
  | ⟨0, _⟩ => rfl
  | ⟨1, _⟩ => rfl
  | ⟨2, _⟩ => rfl
  | ⟨3, _⟩ => rfl

/-- Head h's blended value at (n, h, q, d). -/
theorem blend_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (n : Fin 4) (h : Fin 8) (q : Fin 2048) (d : Fin 64) :
    val_main_v37 (F := Ideal) x0 x1 x2 x4 x5 x6 x7 x8 x9 (ix4 n h q d)
      = blend (weights (fun n s e => x0 (ix3 n s e)) (fun n s e => x1 (ix3 n s e)) (fun n k => x2 (ix2 n k))
            (fun j e => x4 (ix2 j e)) (fun j => x5 (ix1 j)) (fun j e => x6 (ix2 j e)) (fun j => x7 (ix1 j)))
          (dense (fun n s e => x0 (ix3 n s e)) (fun j e => x8 (ix2 j e)) (fun j => x9 (ix1 j))) n h q d := by
  rw [val_main_v37_apply]
  refine Finset.sum_congr rfl fun k _ => ?_
  rw [lidx_blend, ridx_blend, weights_eq, proj_v]

/-- Reading the transposed and reshaped blend at (n, s, k) reads head k / 64 at place k % 64. -/
theorem idx_merge (n : Fin 4) (s : Fin 2048) (k : Fin 512) :
    idx_main_v38 (idx_main_v39 (ix3 n s k)) = ix4 n (hOf k) s (dOf k) := by
  funext a
  have hn := n.isLt; have hs := s.isLt; have hk := k.isLt
  match a with
  | ⟨0, _⟩ => exact Fin.ext (show ((n.val * 2048 + s.val) * 512 + k.val) / 1048576 = n.val by omega)
  | ⟨1, _⟩ => exact Fin.ext (show ((n.val * 2048 + s.val) * 512 + k.val) / 64 % 8 = k.val / 64 by omega)
  | ⟨2, _⟩ => exact Fin.ext (show ((n.val * 2048 + s.val) * 512 + k.val) / 512 % 2048 = s.val by omega)
  | ⟨3, _⟩ => exact Fin.ext (show ((n.val * 2048 + s.val) * 512 + k.val) % 64 = k.val % 64 by omega)

/-- The heads laid side by side again, at (n, s, k). -/
theorem merged_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (n : Fin 4) (s : Fin 2048) (k : Fin 512) :
    val_main_v39 (F := Ideal) x0 x1 x2 x4 x5 x6 x7 x8 x9 (ix3 n s k)
      = blend (weights (fun n s e => x0 (ix3 n s e)) (fun n s e => x1 (ix3 n s e)) (fun n k => x2 (ix2 n k))
            (fun j e => x4 (ix2 j e)) (fun j => x5 (ix1 j)) (fun j e => x6 (ix2 j e)) (fun j => x7 (ix1 j)))
          (dense (fun n s e => x0 (ix3 n s e)) (fun j e => x8 (ix2 j e)) (fun j => x9 (ix1 j))) n (hOf k) s (dOf k) := by
  rw [val_main_v39_apply, val_main_v38_apply, idx_merge, blend_eq]

theorem lidx_out (n : Fin 4) (s : Fin 2048) (e k : Fin 512) : lidx_main_v40 (ix3 n s e) k = ix3 n s k := by
  funext a
  match a with
  | ⟨0, _⟩ => rfl
  | ⟨1, _⟩ => rfl
  | ⟨2, _⟩ => rfl

theorem ridx_out (n : Fin 4) (s : Fin 2048) (e k : Fin 512) : ridx_main_v40 (ix3 n s e) k = ix2 e k := by
  funext a
  match a with
  | ⟨0, _⟩ => rfl
  | ⟨1, _⟩ => rfl

theorem idx_bias_out (n : Fin 4) (s : Fin 2048) (e : Fin 512) : idx_main_v41 (idx_main_v42 (ix3 n s e)) = ix1 e := by
  funext a
  match a with
  | ⟨0, _⟩ => rfl

/-- The layer's output at (n, s, e). -/
theorem output_eq (x0 x1 : (⟨S4x2048x512, .f32⟩ : BufTy).Contents (Elt Ideal)) (x2 : (⟨S4x2048, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (x10 : (⟨S512x512, .f32⟩ : BufTy).Contents (Elt Ideal)) (x11 : (⟨S512, .f32⟩ : BufTy).Contents (Elt Ideal))
    (n : Fin 4) (s : Fin 2048) (e : Fin 512) :
    val_main_v43 (F := Ideal) x0 x1 x2 x4 x5 x6 x7 x8 x9 x10 x11 (ix3 n s e)
      = output (fun n s e => x0 (ix3 n s e)) (fun n s e => x1 (ix3 n s e)) (fun n k => x2 (ix2 n k))
          (fun j e => x4 (ix2 j e)) (fun j => x5 (ix1 j)) (fun j e => x6 (ix2 j e)) (fun j => x7 (ix1 j))
          (fun j e => x8 (ix2 j e)) (fun j => x9 (ix1 j)) (fun j e => x10 (ix2 j e)) (fun j => x11 (ix1 j)) n s e := by
  rw [val_main_v43_apply, val_main_v40_apply, val_main_v42_apply, val_main_v41_apply, idx_bias_out]
  unfold output outp
  refine congrArg (· + x11 (ix1 e)) (Finset.sum_congr rfl fun k _ => ?_)
  rw [lidx_out, ridx_out, merged_eq]

end Cert.ReferenceIdeal.RefValue

end
-- ==== Proof.lean ====
/-
  Multi-head attention, four kernel regions against the jnp reference: the certificate's five claims.

  Both programs, read over the extended reals, compute the same two arrays of the arguments: the attention weights
  softmax (Q·Kᵀ + mask) per head and the output (weights·V, heads side by side) · W_oᵀ + b_o, with Q, K, V the dense
  projections of the two input arrays. The kernel side: its run ends with the two result buffers at the last boundary's
  contents (`KRun`), which, followed back through the host stretches and the four regions (`KGlue`, `KReg0` … `KReg3`
  over the bodies' stored values, `Bodies`), are the specification's `output` and `weights` read at coordinates
  (`KValue`). The reference side: its run's two result terms are the same functions (`RefSide`). No step uses a law
  that fails at an infinity: every sum keeps its terms and their order, so the precondition is not opened.
  The idealization rewrote nothing, so the kernel as printed and its idealization are one text and `preserves` is trivial;
  the two kernel programs' frames are the generated ones, the reference's is its run with the results dropped.
-/
import proofs.«133988_j46273977647279_2_alg».proof.Defs
import proofs.«133988_j46273977647279_2_alg».proof.Proof.Gen.Kernel
import proofs.«133988_j46273977647279_2_alg».proof.Proof.Gen.Kernel.Skeleton
import proofs.«133988_j46273977647279_2_alg».proof.Proof.Gen.Kernel.Launch
import proofs.«133988_j46273977647279_2_alg».proof.Proof.Gen.Kernel.Points
import proofs.«133988_j46273977647279_2_alg».proof.Proof.Gen.Kernel.Frame
import proofs.«133988_j46273977647279_2_alg».proof.Proof.Gen.KernelIdeal
import proofs.«133988_j46273977647279_2_alg».proof.Proof.Gen.KernelIdeal.Skeleton
import proofs.«133988_j46273977647279_2_alg».proof.Proof.Gen.KernelIdeal.Launch
import proofs.«133988_j46273977647279_2_alg».proof.Proof.Gen.KernelIdeal.Points
import proofs.«133988_j46273977647279_2_alg».proof.Proof.Gen.KernelIdeal.Frame
import proofs.«133988_j46273977647279_2_alg».proof.Proof.Gen.ReferenceIdeal
import proofs.«133988_j46273977647279_2_alg».proof.Proof.Gen.Pre_finite_inputs
import proofs.«133988_j46273977647279_2_alg».proof.Proof.Gen.ReferenceIdeal.Run
import proofs.«133988_j46273977647279_2_alg».proof.Proof.Gen.ReferenceIdeal.Read
import proofs.«133988_j46273977647279_2_alg».proof.Proof.KRun
import proofs.«133988_j46273977647279_2_alg».proof.Proof.KValue
import proofs.«133988_j46273977647279_2_alg».proof.Proof.RefSide
import Idealize.ShloMosaic.Adequacy
import Idealize.ShloMosaic.Init

noncomputable section

namespace Cert.Proof

open Idealize.ShloMosaic Idealize.ShloMosaic.ValueIdx Idealize.SL.Sem

theorem frame_p [Cert.Kernel.Facts] [Cert.Pre_finite_inputs.Facts] : Cert.frame_Kernel :=
  fun m ρ _ => Cert.Kernel.Gen.frame m ρ

theorem frame_pi [Cert.KernelIdeal.Facts] [Cert.Pre_finite_inputs.Facts] : Cert.frame_KernelIdeal :=
  fun m ρ _ => Cert.KernelIdeal.Gen.frame m ρ

/-- The reference's frame: its run, the two results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- Both programs end with the same output and the same attention weights: entry by entry each is the specification's
    function of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W11 m ρ c (Proc.devRef .tc Cert.KernelIdeal.main_v26),
    fun c => Cert.KernelIdeal.Gen.W11 m ρ c (Proc.devRef .tc Cert.KernelIdeal.main_v21_0),
    Cert.KernelIdeal.Named.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    show _ = Cert.KernelIdeal.Gen.W11 m ρ c (Proc.devRef .tc Cert.KernelIdeal.main_v26)
    rw [Cert.ReferenceIdeal.Read.val_main_v43_eq, Cert.KernelIdeal.Glue.w11_v26, h0, h1, h2, h4, h5, h6, h7, h8, h9, h10, h11]
    funext i
    obtain ⟨n, s, e, rfl⟩ : ∃ (n : Fin 4) (s : Fin 2048) (e : Fin 512), i = ix3 n s e := ⟨i 0, i 1, i 2, eq_ix3 i⟩
    exact (Cert.ReferenceIdeal.RefValue.output_eq _ _ _ _ _ _ _ _ _ _ _ n s e).trans
      (Cert.KernelIdeal.Entries.result_out_at m c n s e).symm
  · obtain ⟨h0, h1, h2, h3, h4, h5, h6, h7, h8, h9, h10, h11⟩ := hagree c
    show _ = Cert.KernelIdeal.Gen.W11 m ρ c (Proc.devRef .tc Cert.KernelIdeal.main_v21_0)
    rw [Cert.ReferenceIdeal.Read.val_main_v36_eq, Cert.KernelIdeal.Glue.w11_v21_0, h0, h1, h2, h4, h5, h6, h7]
    funext i
    obtain ⟨n, h, q, k, rfl⟩ : ∃ (n : Fin 4) (h : Fin 8) (q k : Fin 2048), i = ix4 n h q k := ⟨i 0, i 1, i 2, i 3, eq_ix4 i⟩
    exact (Cert.ReferenceIdeal.RefValue.weights_eq _ _ _ _ _ _ _ n h q k).trans
      (Cert.KernelIdeal.Entries.attn_at m c n h q k).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
